-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x2 : Shape := ⟨2, ![200000, 2]⟩
abbrev S2x6400000 : Shape := ⟨2, ![2, 6400000]⟩
abbrev S200000 : Shape := ⟨1, ![200000]⟩
abbrev S2x16 : Shape := ⟨2, ![2, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S200000x2 : S_.BroadcastsInDim S200000x2 (![] : Fin 0 → Fin S200000x2.rank)
  reducesTo_S200000x2_S_d0_1 : S200000x2.ReducesTo [0, 1] S_
  h_S_ : 0 < S_.numel
  bcast_S_S2x16 : S_.BroadcastsInDim S2x16 (![] : Fin 0 → Fin S2x16.rank)
  reducesTo_S2x16_S_d0_1 : S2x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S16 .f32) (main_arg17 : FVec F S16x1 .f32) (main_arg18 : FVec F S1 .f32) (main_v63 : IVec S_ 1) (main_v67 : IVec S_ 1) : IVec S_ 1 :=
  let main_v68 : IVec S_ 1 := andi main_v63 main_v67
  let main_v69 : FVec F S16 .f32 := Host.absf main_arg16
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S16x1 .f32 := Host.absf main_arg17
  let main_cst_28 : FVec F S_ .f32 := constant S_ .f32 0x7F800000#32
  let main_v75 : FVec F S16x1 .f32 := broadcastInDim S16x1 ![] bcast_S_S16x1 main_cst_28
  let main_v76 : IVec S16x1 1 := cmpf .olt main_v74 main_v75
  let main_c_29 : IVec S_ 1 := constantI S_ 1 1#1
  let main_v77 : IVec S_ 1 := (fun x v => Host.reduce IntOp.andi x v reducesTo_S16x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg13 : FVec F S16x16 .f32) (main_arg14 : FVec F S16 .f32) (main_arg15 : FVec F S16x16 .f32) (main_arg16 : FVec F S16 .f32) (main_arg17 : FVec F S16x1 .f32) (main_arg18 : FVec F S1 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x16 .f32 := Host.absf main_arg13
  let main_cst_20 : FVec F S_ .f32 := constant S_ .f32 0x7F800000#32
  let main_v55 : FVec F S16x16 .f32 := broadcastInDim S16x16 ![] bcast_S_S16x16 main_cst_20
  let main_v56 : IVec S16x16 1 := cmpf .olt main_v54 main_v55
  let main_c_21 : IVec S_ 1 := constantI S_ 1 1#1
  let main_v57 : IVec S_ 1 := (fun x v => Host.reduce IntOp.andi x v reducesTo_S16x16_S_d0_1 h_S_) main_v56 main_c_21
  let main_v58 : IVec S_ 1 := andi main_v53 main_v57
  let main_v59 : FVec F S16 .f32 := Host.absf main_arg14
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16x16 .f32 := Host.absf main_arg15
  let main_cst_24 : FVec F S_ .f32 := constant S_ .f32 0x7F800000#32
  let main_v65 : FVec F S16x16 .f32 := broadcastInDim S16x16 ![] bcast_S_S16x16 main_cst_24
  let main_v66 : IVec S16x16 1 := cmpf .olt main_v64 main_v65
  let main_c_25 : IVec S_ 1 := constantI S_ 1 1#1
  let main_v67 : IVec S_ 1 := (fun x v => Host.reduce IntOp.andi x v reducesTo_S16x16_S_d0_1 h_S_) main_v66 main_c_25
  fn_part4 (F := F) main_arg16 main_arg17 main_arg18 main_v63 main_v67

def fn_part2 {F : FTy → Type} [FloatOps F] (main_arg9 : FVec F S16x16 .f32) (main_arg10 : FVec F S16 .f32) (main_arg11 : FVec F S16x16 .f32) (main_arg12 : FVec F S16 .f32) (main_arg13 : FVec F S16x16 .f32) (main_arg14 : FVec F S16 .f32) (main_arg15 : FVec F S16x16 .f32) (main_arg16 : FVec F S16 .f32) (main_arg17 : FVec F S16x1 .f32) (main_arg18 : FVec F S1 .f32) (main_v33 : IVec S_ 1) : IVec S_ 1 :=
  let main_v34 : FVec F S16x16 .f32 := Host.absf main_arg9
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x16 .f32 := Host.absf main_arg11
  let main_cst_16 : FVec F S_ .f32 := constant S_ .f32 0x7F800000#32
  let main_v45 : FVec F S16x16 .f32 := broadcastInDim S16x16 ![] bcast_S_S16x16 main_cst_16
  let main_v46 : IVec S16x16 1 := cmpf .olt main_v44 main_v45
  let main_c_17 : IVec S_ 1 := constantI S_ 1 1#1
  let main_v47 : IVec S_ 1 := (fun x v => Host.reduce IntOp.andi x v reducesTo_S16x16_S_d0_1 h_S_) main_v46 main_c_17
  let main_v48 : IVec S_ 1 := andi main_v43 main_v47
  let main_v49 : FVec F S16 .f32 := Host.absf main_arg12
  let main_cst_18 : FVec F S_ .f32 := constant S_ .f32 0x7F800000#32
  let main_v50 : FVec F S16 .f32 := broadcastInDim S16 ![] bcast_S_S16 main_cst_18
  fn_part3 (F := F) main_arg13 main_arg14 main_arg15 main_arg16 main_arg17 main_arg18 main_v48 main_v49 main_v50

def fn_part1 {F : FTy → Type} [FloatOps F] (main_arg6 : FVec F S16 .f32) (main_arg7 : FVec F S16x16 .f32) (main_arg8 : FVec F S16 .f32) (main_arg9 : FVec F S16x16 .f32) (main_arg10 : FVec F S16 .f32) (main_arg11 : FVec F S16x16 .f32) (main_arg12 : FVec F S16 .f32) (main_arg13 : FVec F S16x16 .f32) (main_arg14 : FVec F S16 .f32) (main_arg15 : FVec F S16x16 .f32) (main_arg16 : FVec F S16 .f32) (main_arg17 : FVec F S16x1 .f32) (main_arg18 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg7
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S200000x2 .f32) (main_arg1 : IVec S2x6400000 32) (main_arg2 : IVec S200000 32) (main_arg3 : FVec F S2x16 .f32) (main_arg4 : FVec F S16 .f32) (main_arg5 : FVec F S16x16 .f32) (main_arg6 : FVec F S16 .f32) (main_arg7 : FVec F S16x16 .f32) (main_arg8 : FVec F S16 .f32) (main_arg9 : FVec F S16x16 .f32) (main_arg10 : FVec F S16 .f32) (main_arg11 : FVec F S16x16 .f32) (main_arg12 : FVec F S16 .f32) (main_arg13 : FVec F S16x16 .f32) (main_arg14 : FVec F S16 .f32) (main_arg15 : FVec F S16x16 .f32) (main_arg16 : FVec F S16 .f32) (main_arg17 : FVec F S16x1 .f32) (main_arg18 : FVec F S1 .f32) : IVec S_ 1 :=
  let main_v0 : FVec F S200000x2 .f32 := Host.absf main_arg0
  let main_cst : FVec F S_ .f32 := constant S_ .f32 0x7F800000#32
  let main_v1 : FVec F S200000x2 .f32 := broadcastInDim S200000x2 ![] bcast_S_S200000x2 main_cst
  let main_v2 : IVec S200000x2 1 := cmpf .olt main_v0 main_v1
  let main_c : IVec S_ 1 := constantI S_ 1 1#1
  let main_v3 : IVec S_ 1 := (fun x v => Host.reduce IntOp.andi x v reducesTo_S200000x2_S_d0_1 h_S_) main_v2 main_c
  let main_v4 : FVec F S2x16 .f32 := Host.absf main_arg3
  let main_cst_0 : FVec F S_ .f32 := constant S_ .f32 0x7F800000#32
  let main_v5 : FVec F S2x16 .f32 := broadcastInDim S2x16 ![] bcast_S_S2x16 main_cst_0
  let main_v6 : IVec S2x16 1 := cmpf .olt main_v4 main_v5
  let main_c_1 : IVec S_ 1 := constantI S_ 1 1#1
  let main_v7 : IVec S_ 1 := (fun x v => Host.reduce IntOp.andi x v reducesTo_S2x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg5
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S200000x2 : Shape := ⟨2, ![200000, 2]⟩
abbrev S2x6400000 : Shape := ⟨2, ![2, 6400000]⟩
abbrev S200000 : Shape := ⟨1, ![200000]⟩
abbrev S2x16 : Shape := ⟨2, ![2, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x2 : Shape := ⟨2, ![6400000, 2]⟩
abbrev S1x16 : Shape := ⟨2, ![1, 16]⟩
abbrev S200000x16 : Shape := ⟨2, ![200000, 16]⟩
abbrev S8000x2 : Shape := ⟨2, ![8000, 2]⟩
abbrev S8000x16 : Shape := ⟨2, ![8000, 16]⟩
abbrev S6400000x16 : Shape := ⟨2, ![6400000, 16]⟩
abbrev S2000x16 : Shape := ⟨2, ![2000, 16]⟩
abbrev S200000x1 : Shape := ⟨2, ![200000, 1]⟩
abbrev S1x1 : Shape := ⟨2, ![1, 1]⟩
abbrev S2000x1 : Shape := ⟨2, ![2000, 1]⟩

abbrev nBuf : Space → Nat
  | .hbm => 81
  | .vmem => 30
  | .smem => 0
  | _ => 0

abbrev bufTy : (tb : Table) → Fin (tcTables nBuf tb) → BufTy
  | .hbm, ⟨0, _⟩ => ⟨S200000x2, .f32⟩
  | .hbm, ⟨1, _⟩ => ⟨S2x6400000, .i32⟩
  | .hbm, ⟨2, _⟩ => ⟨S200000, .i32⟩
  | .hbm, ⟨3, _⟩ => ⟨S2x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S16x16, .f32⟩
  | .hbm, ⟨10, _⟩ => ⟨S16, .f32⟩
  | .hbm, ⟨11, _⟩ => ⟨S16x16, .f32⟩
  | .hbm, ⟨12, _⟩ => ⟨S16, .f32⟩
  | .hbm, ⟨13, _⟩ => ⟨S16x16, .f32⟩
  | .hbm, ⟨14, _⟩ => ⟨S16, .f32⟩
  | .hbm, ⟨15, _⟩ => ⟨S16x16, .f32⟩
  | .hbm, ⟨16, _⟩ => ⟨S16, .f32⟩
  | .hbm, ⟨17, _⟩ => ⟨S16x1, .f32⟩
  | .hbm, ⟨18, _⟩ => ⟨S1, .f32⟩
  | .hbm, ⟨19, _⟩ => ⟨S1x6400000, .i32⟩
  | .hbm, ⟨20, _⟩ => ⟨S6400000, .i32⟩
  | .hbm, ⟨21, _⟩ => ⟨S1x6400000, .i32⟩
  | .hbm, ⟨22, _⟩ => ⟨S6400000, .i32⟩
  | .hbm, ⟨23, _⟩ => ⟨S_, .i32⟩
  | .hbm, ⟨24, _⟩ => ⟨S6400000, .i32⟩
  | .hbm, ⟨25, _⟩ => ⟨S6400000, .i1⟩
  | .hbm, ⟨26, _⟩ => ⟨S_, .i32⟩
  | .hbm, ⟨27, _⟩ => ⟨S6400000, .i32⟩
  | .hbm, ⟨28, _⟩ => ⟨S6400000, .i32⟩
  | .hbm, ⟨29, _⟩ => ⟨S6400000, .i32⟩
  | .hbm, ⟨30, _⟩ => ⟨S6400000x1, .i32⟩
  | .hbm, ⟨31, _⟩ => ⟨S6400000x2, .f32⟩
  | .hbm, ⟨32, _⟩ => ⟨S_, .f32⟩
  | .hbm, ⟨33, _⟩ => ⟨S200000x2, .f32⟩
  | .hbm, ⟨34, _⟩ => ⟨S6400000x1, .i32⟩
  | .hbm, ⟨35, _⟩ => ⟨S200000x2, .f32⟩
  | .hbm, ⟨36, _⟩ => ⟨S200000x2, .f32⟩
  | .hbm, ⟨37, _⟩ => ⟨S1x16, .f32⟩
  | .hbm, ⟨38, _⟩ => ⟨S1x16, .f32⟩
  | .hbm, ⟨39, _⟩ => ⟨S200000x16, .f32⟩
  | .hbm, ⟨40, _⟩ => ⟨S_, .i32⟩
  | .hbm, ⟨41, _⟩ => ⟨S6400000, .i32⟩
  | .hbm, ⟨42, _⟩ => ⟨S6400000, .i1⟩
  | .hbm, ⟨43, _⟩ => ⟨S_, .i32⟩
  | .hbm, ⟨44, _⟩ => ⟨S6400000, .i32⟩
  | .hbm, ⟨45, _⟩ => ⟨S6400000, .i32⟩
  | .hbm, ⟨46, _⟩ => ⟨S6400000, .i32⟩
  | .hbm, ⟨47, _⟩ => ⟨S6400000x1, .i32⟩
  | .hbm, ⟨48, _⟩ => ⟨S6400000x16, .f32⟩
  | .hbm, ⟨49, _⟩ => ⟨S_, .f32⟩
  | .hbm, ⟨50, _⟩ => ⟨S200000x16, .f32⟩
  | .hbm, ⟨51, _⟩ => ⟨S6400000x1, .i32⟩
  | .hbm, ⟨52, _⟩ => ⟨S200000x16, .f32⟩
  | .hbm, ⟨53, _⟩ => ⟨S200000x16, .f32⟩
  | .hbm, ⟨54, _⟩ => ⟨S1x16, .f32⟩
  | .hbm, ⟨55, _⟩ => ⟨S1x16, .f32⟩
  | .hbm, ⟨56, _⟩ => ⟨S200000x16, .f32⟩
  | .hbm, ⟨57, _⟩ => ⟨S_, .i32⟩
  | .hbm, ⟨58, _⟩ => ⟨S6400000, .i32⟩
  | .hbm, ⟨59, _⟩ => ⟨S6400000, .i1⟩
  | .hbm, ⟨60, _⟩ => ⟨S_, .i32⟩
  | .hbm, ⟨61, _⟩ => ⟨S6400000, .i32⟩
  | .hbm, ⟨62, _⟩ => ⟨S6400000, .i32⟩
  | .hbm, ⟨63, _⟩ => ⟨S6400000, .i32⟩
  | .hbm, ⟨64, _⟩ => ⟨S6400000x1, .i32⟩
  | .hbm, ⟨65, _⟩ => ⟨S6400000x16, .f32⟩
  | .hbm, ⟨66, _⟩ => ⟨S_, .f32⟩
  | .hbm, ⟨67, _⟩ => ⟨S200000x16, .f32⟩
  | .hbm, ⟨68, _⟩ => ⟨S6400000x1, .i32⟩
  | .hbm, ⟨69, _⟩ => ⟨S200000x16, .f32⟩
  | .hbm, ⟨70, _⟩ => ⟨S200000x16, .f32⟩
  | .hbm, ⟨71, _⟩ => ⟨S1x16, .f32⟩
  | .hbm, ⟨72, _⟩ => ⟨S1x16, .f32⟩
  | .hbm, ⟨73, _⟩ => ⟨S200000x16, .f32⟩
  | .hbm, ⟨74, _⟩ => ⟨S_, .f32⟩
  | .hbm, ⟨75, _⟩ => ⟨S2000x16, .f32⟩
  | .hbm, ⟨76, _⟩ => ⟨S200000x1, .i32⟩
  | .hbm, ⟨77, _⟩ => ⟨S2000x16, .f32⟩
  | .hbm, ⟨78, _⟩ => ⟨S1x16, .f32⟩
  | .hbm, ⟨79, _⟩ => ⟨S1x1, .f32⟩
  | .hbm, ⟨80, _⟩ => ⟨S2000x1, .f32⟩
  | .local _ .vmem, ⟨0, _⟩ => ⟨S8000x2, .f32⟩
  | .local _ .vmem, ⟨1, _⟩ => ⟨S8000x2, .f32⟩
  | .local _ .vmem, ⟨2, _⟩ => ⟨S2x16, .f32⟩
  | .local _ .vmem, ⟨3, _⟩ => ⟨S1x16, .f32⟩
  | .local _ .vmem, ⟨4, _⟩ => ⟨S16x16, .f32⟩
  | .local _ .vmem, ⟨5, _⟩ => ⟨S1x16, .f32⟩
  | .local _ .vmem, ⟨6, _⟩ => ⟨S8000x16, .f32⟩
  | .local _ .vmem, ⟨7, _⟩ => ⟨S8000x16, .f32⟩
  | .local _ .vmem, ⟨8, _⟩ => ⟨S8000x16, .f32⟩
  | .local _ .vmem, ⟨9, _⟩ => ⟨S8000x16, .f32⟩
  | .local _ .vmem, ⟨10, _⟩ => ⟨S16x16, .f32⟩
  | .local _ .vmem, ⟨11, _⟩ => ⟨S1x16, .f32⟩
  | .local _ .vmem, ⟨12, _⟩ => ⟨S16x16, .f32⟩
  | .local _ .vmem, ⟨13, _⟩ => ⟨S1x16, .f32⟩
  | .local _ .vmem, ⟨14, _⟩ => ⟨S8000x16, .f32⟩
  | .local _ .vmem, ⟨15, _⟩ => ⟨S8000x16, .f32⟩
  | .local _ .vmem, ⟨16, _⟩ => ⟨S8000x16, .f32⟩
  | .local _ .vmem, ⟨17, _⟩ => ⟨S8000x16, .f32⟩
  | .local _ .vmem, ⟨18, _⟩ => ⟨S16x16, .f32⟩
  | .local _ .vmem, ⟨19, _⟩ => ⟨S1x16, .f32⟩
  | .local _ .vmem, ⟨20, _⟩ => ⟨S16x16, .f32⟩
  | .local _ .vmem, ⟨21, _⟩ => ⟨S1x16, .f32⟩
  | .local _ .vmem, ⟨22, _⟩ => ⟨S8000x16, .f32⟩
  | .local _ .vmem, ⟨23, _⟩ => ⟨S8000x16, .f32⟩
  | .local _ .vmem, ⟨24, _⟩ => ⟨S2000x16, .f32⟩
  | .local _ .vmem, ⟨25, _⟩ => ⟨S16x16, .f32⟩
  | .local _ .vmem, ⟨26, _⟩ => ⟨S1x16, .f32⟩
  | .local _ .vmem, ⟨27, _⟩ => ⟨S16x1, .f32⟩
  | .local _ .vmem, ⟨28, _⟩ => ⟨S1x1, .f32⟩
  | .local _ .vmem, ⟨29, _⟩ => ⟨S2000x1, .f32⟩
  | _, _ => ⟨S200000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_1 : Ref sig .tc := ⟨.hbm, 40, rfl⟩
abbrev main_v18 : Ref sig .tc := ⟨.hbm, 41, rfl⟩
abbrev main_v19 : Ref sig .tc := ⟨.hbm, 42, rfl⟩
abbrev main_c_2 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_4 : Ref sig .tc := ⟨.hbm, 57, rfl⟩
abbrev main_v32 : Ref sig .tc := ⟨.hbm, 58, rfl⟩
abbrev main_v33 : Ref sig .tc := ⟨.hbm, 59, rfl⟩
abbrev main_c_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_7 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S2000x16 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S16x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S16x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S2000x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S200000x2 : S_.BroadcastsInDim S200000x2 (![] : Fin 0 → Fin S200000x2.rank)
  shapeCasts_S16_S1x16 : S16.ShapeCasts S1x16
  inb_S8000x2_S8000x2_0_0 : ∀ a, (![0, 0] : Fin 2 → Nat) a + S8000x2.size a ≤ S8000x2.size a
  h_S8000x2 : 0 < S8000x2.numel
  shapeCasts_S8000x2_S8000x2 : S8000x2.ShapeCasts S8000x2
  bitsLt_bf16_f32 : FTy.bits .bf16 < FTy.bits .f32
  inb_S2x16_S2x16_0_0 : ∀ a, (![0, 0] : Fin 2 → Nat) a + S2x16.size a ≤ S2x16.size a
  h_S2x16 : 0 < S2x16.numel
  inb_S16x16_S16x16_0_0 : ∀ a, (![0, 0] : Fin 2 → Nat) a + S16x16.size a ≤ S16x16.size a
  h_S16x16 : 0 < S16x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  inb_S8000x16_S8000x16_0_0 : ∀ a, (![0, 0] : Fin 2 → Nat) a + S8000x16.size a ≤ S8000x16.size a
  h_S8000x16 : 0 < S8000x16.numel
  bcast_S_S200000x16 : S_.BroadcastsInDim S200000x16 (![] : Fin 0 → Fin S200000x16.rank)
  shapeCasts_S8000x16_S8000x16 : S8000x16.ShapeCasts S8000x16
  bcast_S_S2000x16 : S_.BroadcastsInDim S2000x16 (![] : Fin 0 → Fin S2000x16.rank)
  bcast_S200000_S200000x1_0 : S200000.BroadcastsInDim S200000x1 (![0] : Fin 1 → Fin S200000x1.rank)
  shapeCasts_S1_S1x1 : S1.ShapeCasts S1x1
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S16x1_S16x1_0_0 : ∀ a, (![0, 0] : Fin 2 → Nat) a + S16x1.size a ≤ S16x1.size a
  h_S16x1 : 0 < S16x1.numel
  broadcasts_S1x16_S2000x16 : S1x16.Broadcasts S2000x16
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  gather_S200000x2_S6400000x1_S6400000x2_1_0_n_n_0_1_12_wf : GatherDims.WF S200000x2 S6400000x1 S6400000x2 [1] [0] [] [0] [] 1 ![1, 2]
  scatter_S200000x2_S6400000x1_S6400000x2_1_0_0_1_wf : ScatterDims.WF S200000x2 S6400000x1 S6400000x2 [1] [0] [0] 1
  dot_S8000x2_S2x16_S8000x16_1_0_0_1_n_n_wf : DotDims.WF S8000x2 S2x16 S8000x16 [1] [0] [0] [1] [] []
  dot_S8000x16_S16x16_S8000x16_1_0_0_1_n_n_wf : DotDims.WF S8000x16 S16x16 S8000x16 [1] [0] [0] [1] [] []
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1
  scatter_S2000x16_S200000x1_S200000x16_1_0_0_1_wf : ScatterDims.WF S2000x16 S200000x1 S200000x16 [1] [0] [0] 1
  dot_S2000x16_S16x16_S2000x16_1_0_0_1_n_n_wf : DotDims.WF S2000x16 S16x16 S2000x16 [1] [0] [0] [1] [] []
  dot_S2000x16_S16x1_S2000x1_1_0_0_1_n_n_wf : DotDims.WF S2000x16 S16x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x2.size a ≤ S200000x2.size a
  hwx0_0 : ∀ i : grid0.Coords, EltTy.bits .f32 = 32 ∨ (Rect.block (s := S200000x2) S8000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x16.size a ≤ S2x16.size a
  hwx0_1 : ∀ i : grid0.Coords, EltTy.bits .f32 = 32 ∨ (Rect.block (s := S2x16) S2x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x16.size a ≤ S200000x16.size a
  hwx0_5 : ∀ i : grid0.Coords, EltTy.bits .f32 = 32 ∨ (Rect.block (s := S200000x16) S8000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S200000x16.size a
  hwx1_0 : ∀ i : grid1.Coords, EltTy.bits .f32 = 32 ∨ (Rect.block (s := S200000x16) S8000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x16.size a ≤ S16x16.size a
  hwx1_1 : ∀ i : grid1.Coords, EltTy.bits .f32 = 32 ∨ (Rect.block (s := S16x16) S16x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x16.size a ≤ S200000x16.size a
  hwx1_5 : ∀ i : grid1.Coords, EltTy.bits .f32 = 32 ∨ (Rect.block (s := S200000x16) S8000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x16.size a ≤ S200000x16.size a
  hwx2_0 : ∀ i : grid2.Coords, EltTy.bits .f32 = 32 ∨ (Rect.block (s := S200000x16) S8000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x16.size a ≤ S16x16.size a
  hwx2_3 : ∀ i : grid2.Coords, EltTy.bits .f32 = 32 ∨ (Rect.block (s := S16x16) S16x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x16.size a ≤ S200000x16.size a
  hwx2_5 : ∀ i : grid2.Coords, EltTy.bits .f32 = 32 ∨ (Rect.block (s := S200000x16) S8000x16.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S2000x16.size a ≤ S2000x16.size a
  hwx3_0 : ∀ i : grid3.Coords, EltTy.bits .f32 = 32 ∨ (Rect.block (s := S2000x16) S2000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x16.size a ≤ S16x16.size a
  hwx3_1 : ∀ i : grid3.Coords, EltTy.bits .f32 = 32 ∨ (Rect.block (s := S16x16) S16x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x1.size a ≤ S16x1.size a
  hwx3_3 : ∀ i : grid3.Coords, EltTy.bits .f32 = 32 ∨ (Rect.block (s := S16x1) S16x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S2000x1.size a ≤ S2000x1.size a
  hwx3_5 : ∀ i : grid3.Coords, EltTy.bits .f32 = 32 ∨ (Rect.block (s := S2000x1) S2000x1.size (cc3_transform_5 i) (hinb3_5 i)).WholeWords (EltTy.packing .f32)

variable [Facts₀]

def gather_S200000x2_S6400000x1_S6400000x2_1_0_n_n_0_1_12 : GatherDims S200000x2 S6400000x1 S6400000x2 where
  offsetDims := [1]
  collapsedSliceDims := [0]
  operandBatchingDims := []
  startIndicesBatchingDims := []
  startIndexMap := [0]
  indexVectorDim := 1
  sliceSizes := ![1, 2]
  wf := gather_S200000x2_S6400000x1_S6400000x2_1_0_n_n_0_1_12_wf
def scatter_S200000x2_S6400000x1_S6400000x2_1_0_0_1 : ScatterDims S200000x2 S6400000x1 S6400000x2 where
  updateWindowDims := [1]
  insertedWindowDims := [0]
  scatterDimsToOperandDims := [0]
  indexVectorDim := 1
  wf := scatter_S200000x2_S6400000x1_S6400000x2_1_0_0_1_wf
def dot_S8000x2_S2x16_S8000x16_1_0_0_1_n_n : DotDims S8000x2 S2x16 S8000x16 where
  lhsContracting := [1]
  rhsContracting := [0]
  lhsNonContracting := [0]
  rhsNonContracting := [1]
  lhsBatch := []
  rhsBatch := []
  wf := dot_S8000x2_S2x16_S8000x16_1_0_0_1_n_n_wf
def dot_S8000x16_S16x16_S8000x16_1_0_0_1_n_n : DotDims S8000x16 S16x16 S8000x16 where
  lhsContracting := [1]
  rhsContracting := [0]
  lhsNonContracting := [0]
  rhsNonContracting := [1]
  lhsBatch := []
  rhsBatch := []
  wf := dot_S8000x16_S16x16_S8000x16_1_0_0_1_n_n_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf
def scatter_S2000x16_S200000x1_S200000x16_1_0_0_1 : ScatterDims S2000x16 S200000x1 S200000x16 where
  updateWindowDims := [1]
  insertedWindowDims := [0]
  scatterDimsToOperandDims := [0]
  indexVectorDim := 1
  wf := scatter_S2000x16_S200000x1_S200000x16_1_0_0_1_wf
def dot_S2000x16_S16x16_S2000x16_1_0_0_1_n_n : DotDims S2000x16 S16x16 S2000x16 where
  lhsContracting := [1]
  rhsContracting := [0]
  lhsNonContracting := [0]
  rhsNonContracting := [1]
  lhsBatch := []
  rhsBatch := []
  wf := dot_S2000x16_S16x16_S2000x16_1_0_0_1_n_n_wf
def dot_S2000x16_S16x1_S2000x1_1_0_0_1_n_n : DotDims S2000x16 S16x1 S2000x1 where
  lhsContracting := [1]
  rhsContracting := [0]
  lhsNonContracting := [0]
  rhsNonContracting := [1]
  lhsBatch := []
  rhsBatch := []
  wf := dot_S2000x16_S16x1_S2000x1_1_0_0_1_n_n_wf

abbrev win0_0 : Pipeline.Window sig grid0 :=
  Pipeline.Window.ofSpec (Memref.whole main_v14) S8000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S8000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S16x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S8000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S8000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S16x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S8000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v48) S2000x16.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg15) S16x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg17) S16x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S2000x1.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S200000x2 : Shape := ⟨2, ![200000, 2]⟩
abbrev S2x6400000 : Shape := ⟨2, ![2, 6400000]⟩
abbrev S200000 : Shape := ⟨1, ![200000]⟩
abbrev S2x16 : Shape := ⟨2, ![2, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x2 : Shape := ⟨2, ![6400000, 2]⟩
abbrev S200000x16 : Shape := ⟨2, ![200000, 16]⟩
abbrev S1x16 : Shape := ⟨2, ![1, 16]⟩
abbrev S6400000x16 : Shape := ⟨2, ![6400000, 16]⟩
abbrev S2000x16 : Shape := ⟨2, ![2000, 16]⟩
abbrev S200000x1 : Shape := ⟨2, ![200000, 1]⟩
abbrev S2000x1 : Shape := ⟨2, ![2000, 1]⟩
abbrev S1x1 : Shape := ⟨2, ![1, 1]⟩

abbrev nBuf : Space → Nat
  | .hbm => 122
  | .vmem => 0
  | .smem => 0
  | _ => 0

abbrev bufTy : (tb : Table) → Fin (tcTables nBuf tb) → BufTy
  | .hbm, ⟨0, _⟩ => ⟨S200000x2, .f32⟩
  | .hbm, ⟨1, _⟩ => ⟨S2x6400000, .i32⟩
  | .hbm, ⟨2, _⟩ => ⟨S200000, .i32⟩
  | .hbm, ⟨3, _⟩ => ⟨S2x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S16x16, .f32⟩
  | .hbm, ⟨10, _⟩ => ⟨S16, .f32⟩
  | .hbm, ⟨11, _⟩ => ⟨S16x16, .f32⟩
  | .hbm, ⟨12, _⟩ => ⟨S16, .f32⟩
  | .hbm, ⟨13, _⟩ => ⟨S16x16, .f32⟩
  | .hbm, ⟨14, _⟩ => ⟨S16, .f32⟩
  | .hbm, ⟨15, _⟩ => ⟨S16x16, .f32⟩
  | .hbm, ⟨16, _⟩ => ⟨S16, .f32⟩
  | .hbm, ⟨17, _⟩ => ⟨S16x1, .f32⟩
  | .hbm, ⟨18, _⟩ => ⟨S1, .f32⟩
  | .hbm, ⟨19, _⟩ => ⟨S1x6400000, .i32⟩
  | .hbm, ⟨20, _⟩ => ⟨S6400000, .i32⟩
  | .hbm, ⟨21, _⟩ => ⟨S1x6400000, .i32⟩
  | .hbm, ⟨22, _⟩ => ⟨S6400000, .i32⟩
  | .hbm, ⟨23, _⟩ => ⟨S_, .i32⟩
  | .hbm, ⟨24, _⟩ => ⟨S6400000, .i32⟩
  | .hbm, ⟨25, _⟩ => ⟨S6400000, .i1⟩
  | .hbm, ⟨26, _⟩ => ⟨S_, .i32⟩
  | .hbm, ⟨27, _⟩ => ⟨S6400000, .i32⟩
  | .hbm, ⟨28, _⟩ => ⟨S6400000, .i32⟩
  | .hbm, ⟨29, _⟩ => ⟨S6400000, .i32⟩
  | .hbm, ⟨30, _⟩ => ⟨S6400000x1, .i32⟩
  | .hbm, ⟨31, _⟩ => ⟨S6400000x2, .f32⟩
  | .hbm, ⟨32, _⟩ => ⟨S_, .f32⟩
  | .hbm, ⟨33, _⟩ => ⟨S200000x2, .f32⟩
  | .hbm, ⟨34, _⟩ => ⟨S6400000x1, .i32⟩
  | .hbm, ⟨35, _⟩ => ⟨S200000x2, .f32⟩
  | .hbm, ⟨36, _⟩ => ⟨S200000x2, .f32⟩
  | .hbm, ⟨37, _⟩ => ⟨S200000x16, .f32⟩
  | .hbm, ⟨38, _⟩ => ⟨S1x16, .f32⟩
  | .hbm, ⟨39, _⟩ => ⟨S200000x16, .f32⟩
  | .hbm, ⟨40, _⟩ => ⟨S200000x16, .f32⟩
  | .hbm, ⟨41, _⟩ => ⟨S_, .f32⟩
  | .hbm, ⟨42, _⟩ => ⟨S200000x16, .f32⟩
  | .hbm, ⟨43, _⟩ => ⟨S200000x16, .f32⟩
  | .hbm, ⟨44, _⟩ => ⟨S200000x16, .f32⟩
  | .hbm, ⟨45, _⟩ => ⟨S1x16, .f32⟩
  | .hbm, ⟨46, _⟩ => ⟨S200000x16, .f32⟩
  | .hbm, ⟨47, _⟩ => ⟨S200000x16, .f32⟩
  | .hbm, ⟨48, _⟩ => ⟨S_, .f32⟩
  | .hbm, ⟨49, _⟩ => ⟨S200000x16, .f32⟩
  | .hbm, ⟨50, _⟩ => ⟨S200000x16, .f32⟩
  | .hbm, ⟨51, _⟩ => ⟨S_, .i32⟩
  | .hbm, ⟨52, _⟩ => ⟨S6400000, .i32⟩
  | .hbm, ⟨53, _⟩ => ⟨S6400000, .i1⟩
  | .hbm, ⟨54, _⟩ => ⟨S_, .i32⟩
  | .hbm, ⟨55, _⟩ => ⟨S6400000, .i32⟩
  | .hbm, ⟨56, _⟩ => ⟨S6400000, .i32⟩
  | .hbm, ⟨57, _⟩ => ⟨S6400000, .i32⟩
  | .hbm, ⟨58, _⟩ => ⟨S6400000x1, .i32⟩
  | .hbm, ⟨59, _⟩ => ⟨S6400000x16, .f32⟩
  | .hbm, ⟨60, _⟩ => ⟨S_, .f32⟩
  | .hbm, ⟨61, _⟩ => ⟨S200000x16, .f32⟩
  | .hbm, ⟨62, _⟩ => ⟨S6400000x1, .i32⟩
  | .hbm, ⟨63, _⟩ => ⟨S200000x16, .f32⟩
  | .hbm, ⟨64, _⟩ => ⟨S200000x16, .f32⟩
  | .hbm, ⟨65, _⟩ => ⟨S200000x16, .f32⟩
  | .hbm, ⟨66, _⟩ => ⟨S1x16, .f32⟩
  | .hbm, ⟨67, _⟩ => ⟨S200000x16, .f32⟩
  | .hbm, ⟨68, _⟩ => ⟨S200000x16, .f32⟩
  | .hbm, ⟨69, _⟩ => ⟨S_, .f32⟩
  | .hbm, ⟨70, _⟩ => ⟨S200000x16, .f32⟩
  | .hbm, ⟨71, _⟩ => ⟨S200000x16, .f32⟩
  | .hbm, ⟨72, _⟩ => ⟨S200000x16, .f32⟩
  | .hbm, ⟨73, _⟩ => ⟨S1x16, .f32⟩
  | .hbm, ⟨74, _⟩ => ⟨S200000x16, .f32⟩
  | .hbm, ⟨75, _⟩ => ⟨S200000x16, .f32⟩
  | .hbm, ⟨76, _⟩ => ⟨S_, .f32⟩
  | .hbm, ⟨77, _⟩ => ⟨S200000x16, .f32⟩
  | .hbm, ⟨78, _⟩ => ⟨S200000x16, .f32⟩
  | .hbm, ⟨79, _⟩ => ⟨S_, .i32⟩
  | .hbm, ⟨80, _⟩ => ⟨S6400000, .i32⟩
  | .hbm, ⟨81, _⟩ => ⟨S6400000, .i1⟩
  | .hbm, ⟨82, _⟩ => ⟨S_, .i32⟩
  | .hbm, ⟨83, _⟩ => ⟨S6400000, .i32⟩
  | .hbm, ⟨84, _⟩ => ⟨S6400000, .i32⟩
  | .hbm, ⟨85, _⟩ => ⟨S6400000, .i32⟩
  | .hbm, ⟨86, _⟩ => ⟨S6400000x1, .i32⟩
  | .hbm, ⟨87, _⟩ => ⟨S6400000x16, .f32⟩
  | .hbm, ⟨88, _⟩ => ⟨S_, .f32⟩
  | .hbm, ⟨89, _⟩ => ⟨S200000x16, .f32⟩
  | .hbm, ⟨90, _⟩ => ⟨S6400000x1, .i32⟩
  | .hbm, ⟨91, _⟩ => ⟨S200000x16, .f32⟩
  | .hbm, ⟨92, _⟩ => ⟨S200000x16, .f32⟩
  | .hbm, ⟨93, _⟩ => ⟨S200000x16, .f32⟩
  | .hbm, ⟨94, _⟩ => ⟨S1x16, .f32⟩
  | .hbm, ⟨95, _⟩ => ⟨S200000x16, .f32⟩
  | .hbm, ⟨96, _⟩ => ⟨S200000x16, .f32⟩
  | .hbm, ⟨97, _⟩ => ⟨S_, .f32⟩
  | .hbm, ⟨98, _⟩ => ⟨S200000x16, .f32⟩
  | .hbm, ⟨99, _⟩ => ⟨S200000x16, .f32⟩
  | .hbm, ⟨100, _⟩ => ⟨S200000x16, .f32⟩
  | .hbm, ⟨101, _⟩ => ⟨S1x16, .f32⟩
  | .hbm, ⟨102, _⟩ => ⟨S200000x16, .f32⟩
  | .hbm, ⟨103, _⟩ => ⟨S200000x16, .f32⟩
  | .hbm, ⟨104, _⟩ => ⟨S_, .f32⟩
  | .hbm, ⟨105, _⟩ => ⟨S200000x16, .f32⟩
  | .hbm, ⟨106, _⟩ => ⟨S200000x16, .f32⟩
  | .hbm, ⟨107, _⟩ => ⟨S_, .f32⟩
  | .hbm, ⟨108, _⟩ => ⟨S2000x16, .f32⟩
  | .hbm, ⟨109, _⟩ => ⟨S200000x1, .i32⟩
  | .hbm, ⟨110, _⟩ => ⟨S2000x16, .f32⟩
  | .hbm, ⟨111, _⟩ => ⟨S2000x16, .f32⟩
  | .hbm, ⟨112, _⟩ => ⟨S1x16, .f32⟩
  | .hbm, ⟨113, _⟩ => ⟨S2000x16, .f32⟩
  | .hbm, ⟨114, _⟩ => ⟨S2000x16, .f32⟩
  | .hbm, ⟨115, _⟩ => ⟨S_, .f32⟩
  | .hbm, ⟨116, _⟩ => ⟨S2000x16, .f32⟩
  | .hbm, ⟨117, _⟩ => ⟨S2000x16, .f32⟩
  | .hbm, ⟨118, _⟩ => ⟨S2000x1, .f32⟩
  | .hbm, ⟨119, _⟩ => ⟨S1x1, .f32⟩
  | .hbm, ⟨120, _⟩ => ⟨S2000x1, .f32⟩
  | .hbm, ⟨121, _⟩ => ⟨S2000x1, .f32⟩
  | _, _ => ⟨S200000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call0_cst : Ref sig .tc := ⟨.hbm, 41, rfl⟩
abbrev main_call0_v0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_call1_cst : Ref sig .tc := ⟨.hbm, 48, rfl⟩
abbrev main_call1_v0 : Ref sig .tc := ⟨.hbm, 49, rfl⟩
abbrev main_v24 : Ref sig .tc := ⟨.hbm, 50, rfl⟩
abbrev main_c_1 : Ref sig .tc := ⟨.hbm, 51, rfl⟩
abbrev main_v25 : Ref sig .tc := ⟨.hbm, 52, rfl⟩
abbrev main_v26 : Ref sig .tc := ⟨.hbm, 53, rfl⟩
abbrev main_c_2 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_3 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_call2_cst : Ref sig .tc := ⟨.hbm, 69, rfl⟩
abbrev main_call2_v0 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_call3_cst : Ref sig .tc := ⟨.hbm, 76, rfl⟩
abbrev main_call3_v0 : Ref sig .tc := ⟨.hbm, 77, rfl⟩
abbrev main_v45 : Ref sig .tc := ⟨.hbm, 78, rfl⟩
abbrev main_c_4 : Ref sig .tc := ⟨.hbm, 79, rfl⟩
abbrev main_v46 : Ref sig .tc := ⟨.hbm, 80, rfl⟩
abbrev main_v47 : Ref sig .tc := ⟨.hbm, 81, rfl⟩
abbrev main_c_5 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_6 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_call4_cst : Ref sig .tc := ⟨.hbm, 97, rfl⟩
abbrev main_call4_v0 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_call5_cst : Ref sig .tc := ⟨.hbm, 104, rfl⟩
abbrev main_call5_v0 : Ref sig .tc := ⟨.hbm, 105, rfl⟩
abbrev main_v66 : Ref sig .tc := ⟨.hbm, 106, rfl⟩
abbrev main_cst_7 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_call6_cst : Ref sig .tc := ⟨.hbm, 115, rfl⟩
abbrev main_call6_v0 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S200000x2 : S_.BroadcastsInDim S200000x2 (![] : Fin 0 → Fin S200000x2.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S_S200000x16 : S_.BroadcastsInDim S200000x16 (![] : Fin 0 → Fin S200000x16.rank)
  bcast_S_S2000x16 : S_.BroadcastsInDim S2000x16 (![] : Fin 0 → Fin S2000x16.rank)
  bcast_S200000_S200000x1_0 : S200000.BroadcastsInDim S200000x1 (![0] : Fin 1 → Fin S200000x1.rank)
  bcast_S1x16_S2000x16_0_1 : S1x16.BroadcastsInDim S2000x16 (![0, 1] : Fin 2 → Fin S2000x16.rank)
  bcast_S1_S1x1_1 : S1.BroadcastsInDim S1x1 (![1] : Fin 1 → Fin S1x1.rank)
  bcast_S1x1_S2000x1_0_1 : S1x1.BroadcastsInDim S2000x1 (![0, 1] : Fin 2 → Fin S2000x1.rank)
  gather_S200000x2_S6400000x1_S6400000x2_1_0_n_n_0_1_12_wf : GatherDims.WF S200000x2 S6400000x1 S6400000x2 [1] [0] [] [0] [] 1 ![1, 2]
  scatter_S200000x2_S6400000x1_S6400000x2_1_0_0_1_wf : ScatterDims.WF S200000x2 S6400000x1 S6400000x2 [1] [0] [0] 1
  dot_S200000x2_S2x16_S200000x16_1_0_0_1_n_n_wf : DotDims.WF S200000x2 S2x16 S200000x16 [1] [0] [0] [1] [] []
  dot_S200000x16_S16x16_S200000x16_1_0_0_1_n_n_wf : DotDims.WF S200000x16 S16x16 S200000x16 [1] [0] [0] [1] [] []
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1
  scatter_S2000x16_S200000x1_S200000x16_1_0_0_1_wf : ScatterDims.WF S2000x16 S200000x1 S200000x16 [1] [0] [0] 1
  dot_S2000x16_S16x16_S2000x16_1_0_0_1_n_n_wf : DotDims.WF S2000x16 S16x16 S2000x16 [1] [0] [0] [1] [] []
  dot_S2000x16_S16x1_S2000x1_1_0_0_1_n_n_wf : DotDims.WF S2000x16 S16x1 S2000x1 [1] [0] [0] [1] [] []

variable [Facts₀]

def gather_S200000x2_S6400000x1_S6400000x2_1_0_n_n_0_1_12 : GatherDims S200000x2 S6400000x1 S6400000x2 where
  offsetDims := [1]
  collapsedSliceDims := [0]
  operandBatchingDims := []
  startIndicesBatchingDims := []
  startIndexMap := [0]
  indexVectorDim := 1
  sliceSizes := ![1, 2]
  wf := gather_S200000x2_S6400000x1_S6400000x2_1_0_n_n_0_1_12_wf
def scatter_S200000x2_S6400000x1_S6400000x2_1_0_0_1 : ScatterDims S200000x2 S6400000x1 S6400000x2 where
  updateWindowDims := [1]
  insertedWindowDims := [0]
  scatterDimsToOperandDims := [0]
  indexVectorDim := 1
  wf := scatter_S200000x2_S6400000x1_S6400000x2_1_0_0_1_wf
def dot_S200000x2_S2x16_S200000x16_1_0_0_1_n_n : DotDims S200000x2 S2x16 S200000x16 where
  lhsContracting := [1]
  rhsContracting := [0]
  lhsNonContracting := [0]
  rhsNonContracting := [1]
  lhsBatch := []
  rhsBatch := []
  wf := dot_S200000x2_S2x16_S200000x16_1_0_0_1_n_n_wf
def dot_S200000x16_S16x16_S200000x16_1_0_0_1_n_n : DotDims S200000x16 S16x16 S200000x16 where
  lhsContracting := [1]
  rhsContracting := [0]
  lhsNonContracting := [0]
  rhsNonContracting := [1]
  lhsBatch := []
  rhsBatch := []
  wf := dot_S200000x16_S16x16_S200000x16_1_0_0_1_n_n_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf
def scatter_S2000x16_S200000x1_S200000x16_1_0_0_1 : ScatterDims S2000x16 S200000x1 S200000x16 where
  updateWindowDims := [1]
  insertedWindowDims := [0]
  scatterDimsToOperandDims := [0]
  indexVectorDim := 1
  wf := scatter_S2000x16_S200000x1_S200000x16_1_0_0_1_wf
def dot_S2000x16_S16x16_S2000x16_1_0_0_1_n_n : DotDims S2000x16 S16x16 S2000x16 where
  lhsContracting := [1]
  rhsContracting := [0]
  lhsNonContracting := [0]
  rhsNonContracting := [1]
  lhsBatch := []
  rhsBatch := []
  wf := dot_S2000x16_S16x16_S2000x16_1_0_0_1_n_n_wf
def dot_S2000x16_S16x1_S2000x1_1_0_0_1_n_n : DotDims S2000x16 S16x1 S2000x1 where
  lhsContracting := [1]
  rhsContracting := [0]
  lhsNonContracting := [0]
  rhsNonContracting := [1]
  lhsBatch := []
  rhsBatch := []
  wf := dot_S2000x16_S16x1_S2000x1_1_0_0_1_n_n_wf

class Facts : Prop extends Facts₀ where

variable [Facts]
-- ==== Proof.KRun.lean ====
/-
  The device program's run with its result named.

  The program is eight segments: a stretch of host operations, then a kernel launch, four times over. The memory at
  each boundary is a fold from the launch memory: a host stretch applies its operations, a launch replaces its
  windows' arrays by what the pipeline leaves there. Every weakly fair execution terminates without a fault with every
  unscoped buffer at the last boundary's contents; in particular the result buffer holds the last fold at its
  reference, and the nineteen arguments are as launched.
-/
import proofs.«181753_j22488448762768_2_alg».proof.Proof.KernelIdealFrameP

set_option maxRecDepth 16384

noncomputable section

namespace Cert.KernelIdeal.Named

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments as
    launched. -/
theorem run_named : θ_run defs (onTc (τ := τ) (main (F := F))) ⟨m, fun _ => 0, ρ⟩ (fun r => ∀ c : Dev nD,
      r.2.mem ((c.tc : Thread nD τ).loc main_v51) = W8 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v51 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c)⟩)

end Cert.KernelIdeal.Named

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.Spec.lean ====
/-
  The two-layer perceptron every stage of this network applies, row by row, over the extended reals.

  For a row p of an [N, K] array x, weights Wa : [K, H], Wb : [H, O] and biases ba, bb, the hidden row is
  max (∑ k, x (p, k) · Wa (k, h) + ba h) 0 and the output entry (p, q) is act (∑ h, hidden h · Wb (h, q) + bb q),
  with act either max · 0 (the three graph layers) or the identity (the read-out). A bias arrives either as a
  vector [H] or as the one-row matrix [1, H] that a reshape makes of it; the two forms of the function agree.
  Also here: the first half of the device computation (a product into a zero accumulator, the bias row broadcast
  over the rows, a maximum with a splat zero) read at an entry as the hidden row of this formula.
-/
import Idealize.ShloMosaic.PureOps.Ideal.Laws
import Idealize.ShloMosaic.Lib.ValueIdx
import Idealize.ShloMosaic.Lib.ValueLayout
import Idealize.ShloMosaic.Lib.Pipeline.Value
import proofs.«181753_j22488448762768_2_alg».proof.Proof.LibPlainDot

noncomputable section

open scoped BigOperators

namespace Cert.Gin

open Idealize.ShloMosaic Idealize.ShloMosaic.ValueIdx

/-- The rectifier on the extended reals. -/
def relu (e : EReal) : EReal := max e 0

variable {N K H O : Nat}

/-- Entry (p, q) of the perceptron with its biases as one-row matrices. -/
def mlpKAt (act : EReal → EReal) (x : FVec Ideal ⟨2, ![N, K]⟩ .f32) (Wa : FVec Ideal ⟨2, ![K, H]⟩ .f32)
    (ba : FVec Ideal ⟨2, ![1, H]⟩ .f32) (Wb : FVec Ideal ⟨2, ![H, O]⟩ .f32) (bb : FVec Ideal ⟨2, ![1, O]⟩ .f32)
    (p : Fin N) (q : Fin O) : EReal :=
  act (∑ h : Fin H, max (∑ k : Fin K, x (ix2 p k) * Wa (ix2 k h) + ba (ix2 (0 : Fin 1) h)) 0 * Wb (ix2 h q)
    + bb (ix2 (0 : Fin 1) q))

/-- The perceptron with its biases as one-row matrices. -/
def mlpK (act : EReal → EReal) (x : FVec Ideal ⟨2, ![N, K]⟩ .f32) (Wa : FVec Ideal ⟨2, ![K, H]⟩ .f32)
    (ba : FVec Ideal ⟨2, ![1, H]⟩ .f32) (Wb : FVec Ideal ⟨2, ![H, O]⟩ .f32) (bb : FVec Ideal ⟨2, ![1, O]⟩ .f32) :
    FVec Ideal ⟨2, ![N, O]⟩ .f32 :=
  fun i => mlpKAt act x Wa ba Wb bb (i 0) (i 1)

/-- Entry (p, q) of the perceptron with its biases as vectors. -/
def mlpAt (act : EReal → EReal) (x : FVec Ideal ⟨2, ![N, K]⟩ .f32) (Wa : FVec Ideal ⟨2, ![K, H]⟩ .f32)
    (ba : FVec Ideal ⟨1, ![H]⟩ .f32) (Wb : FVec Ideal ⟨2, ![H, O]⟩ .f32) (bb : FVec Ideal ⟨1, ![O]⟩ .f32)
    (p : Fin N) (q : Fin O) : EReal :=
  act (∑ h : Fin H, max (∑ k : Fin K, x (ix2 p k) * Wa (ix2 k h) + ba (ix1 h)) 0 * Wb (ix2 h q) + bb (ix1 q))

/-- The perceptron with its biases as vectors. -/
def mlp (act : EReal → EReal) (x : FVec Ideal ⟨2, ![N, K]⟩ .f32) (Wa : FVec Ideal ⟨2, ![K, H]⟩ .f32)
    (ba : FVec Ideal ⟨1, ![H]⟩ .f32) (Wb : FVec Ideal ⟨2, ![H, O]⟩ .f32) (bb : FVec Ideal ⟨1, ![O]⟩ .f32) :
    FVec Ideal ⟨2, ![N, O]⟩ .f32 :=
  fun i => mlpAt act x Wa ba Wb bb (i 0) (i 1)

/-- The one-row form read at an entry given by its coordinates. -/
theorem mlpK_apply (act : EReal → EReal) (x : FVec Ideal ⟨2, ![N, K]⟩ .f32) (Wa : FVec Ideal ⟨2, ![K, H]⟩ .f32)
    (ba : FVec Ideal ⟨2, ![1, H]⟩ .f32) (Wb : FVec Ideal ⟨2, ![H, O]⟩ .f32) (bb : FVec Ideal ⟨2, ![1, O]⟩ .f32)
    (p : Fin N) (q : Fin O) : mlpK act x Wa ba Wb bb (ix2 p q) = mlpKAt act x Wa ba Wb bb p q := rfl

/-- The vector form read at an entry given by its coordinates. -/
theorem mlp_apply (act : EReal → EReal) (x : FVec Ideal ⟨2, ![N, K]⟩ .f32) (Wa : FVec Ideal ⟨2, ![K, H]⟩ .f32)
    (ba : FVec Ideal ⟨1, ![H]⟩ .f32) (Wb : FVec Ideal ⟨2, ![H, O]⟩ .f32) (bb : FVec Ideal ⟨1, ![O]⟩ .f32)
    (p : Fin N) (q : Fin O) : mlp act x Wa ba Wb bb (ix2 p q) = mlpAt act x Wa ba Wb bb p q := rfl

/-- A bias vector reshaped to one row gives the same entry. -/
theorem mlpKAt_reshape (act : EReal → EReal) (x : FVec Ideal ⟨2, ![N, K]⟩ .f32) (Wa : FVec Ideal ⟨2, ![K, H]⟩ .f32)
    (ba : FVec Ideal ⟨1, ![H]⟩ .f32) (Wb : FVec Ideal ⟨2, ![H, O]⟩ .f32) (bb : FVec Ideal ⟨1, ![O]⟩ .f32)
    (h1 : (⟨1, ![H]⟩ : Shape).ShapeCasts ⟨2, ![1, H]⟩) (h2 : (⟨1, ![O]⟩ : Shape).ShapeCasts ⟨2, ![1, O]⟩)
    (p : Fin N) (q : Fin O) :
    mlpKAt act x Wa (shapeCast ⟨2, ![1, H]⟩ ba h1) Wb (shapeCast ⟨2, ![1, O]⟩ bb h2) p q = mlpAt act x Wa ba Wb bb p q := by
  unfold mlpKAt mlpAt
  simp only [shapeCast_a_1a_apply]

/-- A bias vector reshaped to one row gives the same perceptron. -/
theorem mlpK_reshape (act : EReal → EReal) (x : FVec Ideal ⟨2, ![N, K]⟩ .f32) (Wa : FVec Ideal ⟨2, ![K, H]⟩ .f32)
    (ba : FVec Ideal ⟨1, ![H]⟩ .f32) (Wb : FVec Ideal ⟨2, ![H, O]⟩ .f32) (bb : FVec Ideal ⟨1, ![O]⟩ .f32)
    (h1 : (⟨1, ![H]⟩ : Shape).ShapeCasts ⟨2, ![1, H]⟩) (h2 : (⟨1, ![O]⟩ : Shape).ShapeCasts ⟨2, ![1, O]⟩) :
    mlpK act x Wa (shapeCast ⟨2, ![1, H]⟩ ba h1) Wb (shapeCast ⟨2, ![1, O]⟩ bb h2) = mlp act x Wa ba Wb bb :=
  funext fun i => mlpKAt_reshape act x Wa ba Wb bb h1 h2 (i 0) (i 1)

/-- The hidden layer of the device body at an entry: a product into a zero accumulator, the bias row broadcast
    over the rows, the maximum with a splat zero. -/
theorem hidden_apply (dA : DotDims ⟨2, ![N, K]⟩ ⟨2, ![K, H]⟩ ⟨2, ![N, H]⟩)
    (a1 : dA.lhsContracting = [1]) (a2 : dA.rhsContracting = [0]) (a3 : dA.lhsNonContracting = [0])
    (a4 : dA.rhsNonContracting = [1]) (a5 : dA.lhsBatch = []) (a6 : dA.rhsBatch = [])
    (x : FVec Ideal ⟨2, ![N, K]⟩ .bf16) (Wa : FVec Ideal ⟨2, ![K, H]⟩ .bf16) (ba : FVec Ideal ⟨2, ![1, H]⟩ .f32)
    (hb : (⟨2, ![1, H]⟩ : Shape).Broadcasts ⟨2, ![N, H]⟩) (p : Fin N) (h : Fin H) :
    maximumf (addf (matmul dA none x Wa (constant (F := Ideal) ⟨2, ![N, H]⟩ .f32 0x00000000#32)) (broadcastTo ⟨2, ![N, H]⟩ ba hb))
        (broadcast ⟨2, ![N, H]⟩ (Scalar.ofBits (F := Ideal) .f32 0x00000000#32)) (ix2 p h)
      = max (∑ k : Fin K, x (ix2 p k) * Wa (ix2 k h) + ba (ix2 (0 : Fin 1) h)) 0 := by
  rw [maximumf_apply, addf_apply, broadcast_apply, broadcastTo_1b_ab_apply]
  refine congrArg₂ max (congrArg (· + ba (ix2 (0 : Fin 1) h)) ?_) Ideal.ofBits_zero_f32
  exact Cert.PlainDot.matmul_zero_apply dA a1 a2 a3 a4 a5 a6 none x Wa p h

end Cert.Gin

end
-- ==== Proof.Keep.lean ====
/-
  Which buffers the segments of the device program leave alone.

  A launch writes back its output window's array and nothing else: an input window's array is never flushed, and a
  buffer that is no window's array is not touched. A host stretch writes the result buffers of its own operations
  only. So the arguments that later segments read, and the source and destination vectors the first stretch computes,
  hold at every later boundary what they held before.
-/
import proofs.«181753_j22488448762768_2_alg».proof.Proof.KernelIdealFrameP
import Idealize.ShloMosaic.PureOps.Ideal

set_option maxRecDepth 16384

noncomputable section

namespace Cert.KernelIdeal.Keep

open Cert.KernelIdeal Cert.KernelIdeal.Gen Cert.KernelIdeal.GenP Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg) (c : Dev nD)

/-! ## A launch leaves every buffer but its output as it found it

An input window's array is never written back, and a buffer that is no window's array is not touched. -/

theorem W2_keep (b : Ref sig .tc) (hb : b ≠ main_v17) : W2 m ρ c (Proc.devRef .tc b) = W1 m ρ c (Proc.devRef .tc b) := by
  by_cases h : ∃ w, Pipeline.arrRef spec0 w = b
  · obtain ⟨w, rfl⟩ := h
    have hin : (cfg0.win w).isOut = false := by
      revert hb; revert w; decide
    exact (W2_arr m ρ c w).trans (((dat0 (V1 m ρ) c).arrAt_in w hin _).trans (A_eq0 (V1 m ρ) c w))
  · exact W2_of_ne m ρ c b fun w e => h ⟨w, e⟩

theorem W4_keep (b : Ref sig .tc) (hb : b ≠ main_v31) : W4 m ρ c (Proc.devRef .tc b) = W3 m ρ c (Proc.devRef .tc b) := by
  by_cases h : ∃ w, Pipeline.arrRef spec1 w = b
  · obtain ⟨w, rfl⟩ := h
    have hin : (cfg1.win w).isOut = false := by
      revert hb; revert w; decide
    exact (W4_arr m ρ c w).trans (((dat1 (V3 m ρ) c).arrAt_in w hin _).trans (A_eq1 (V3 m ρ) c w))
  · exact W4_of_ne m ρ c b fun w e => h ⟨w, e⟩

theorem W6_keep (b : Ref sig .tc) (hb : b ≠ main_v45) : W6 m ρ c (Proc.devRef .tc b) = W5 m ρ c (Proc.devRef .tc b) := by
  by_cases h : ∃ w, Pipeline.arrRef spec2 w = b
  · obtain ⟨w, rfl⟩ := h
    have hin : (cfg2.win w).isOut = false := by
      revert hb; revert w; decide
    exact (W6_arr m ρ c w).trans (((dat2 (V5 m ρ) c).arrAt_in w hin _).trans (A_eq2 (V5 m ρ) c w))
  · exact W6_of_ne m ρ c b fun w e => h ⟨w, e⟩

/-! ## The buffers later segments read and no host stretch writes

The thirteen arguments read after the first launch, and the two index vectors (sources, destinations) that the
first stretch computes and the next two reuse. -/

/-- The arguments the second and later launches and the pooling read. -/
abbrev laterArgs : List (Ref sig .tc) :=
  [main_arg2, main_arg7, main_arg8, main_arg9, main_arg10, main_arg11, main_arg12, main_arg13, main_arg14,
   main_arg15, main_arg16, main_arg17, main_arg18]

/-- Those, and the source and destination vectors. -/
abbrev carried : List (Ref sig .tc) := main_v1 :: main_v3 :: laterArgs

set_option maxHeartbeats 4000000 in
/-- The first stretch writes none of the later arguments. -/
theorem host0_keep : ∀ b ∈ laterArgs, W1 m ρ c (Proc.devRef .tc b) = m ((c : Thread nD τ).loc b) := by
  intro b hb
  simp only [laterArgs, List.mem_cons, List.mem_singleton, List.not_mem_nil, or_false] at hb
  rcases hb with rfl | rfl | rfl | rfl | rfl | rfl | rfl | rfl | rfl | rfl | rfl | rfl | rfl
  all_goals
    show StableHlo.after hostOps0 (W0 m ρ c) _ = _
    after_results
    try rfl

set_option maxHeartbeats 4000000 in
/-- The second stretch writes none of the carried buffers. -/
theorem host1_keep : ∀ b ∈ carried, W3 m ρ c (Proc.devRef .tc b) = W2 m ρ c (Proc.devRef .tc b) := by
  intro b hb
  simp only [carried, laterArgs, List.mem_cons, List.mem_singleton, List.not_mem_nil, or_false] at hb
  rcases hb with rfl | rfl | rfl | rfl | rfl | rfl | rfl | rfl | rfl | rfl | rfl | rfl | rfl | rfl | rfl
  all_goals
    show StableHlo.after hostOps1 (W2 m ρ c) _ = _
    after_results
    try rfl

set_option maxHeartbeats 4000000 in
/-- The third stretch writes none of the carried buffers. -/
theorem host2_keep : ∀ b ∈ carried, W5 m ρ c (Proc.devRef .tc b) = W4 m ρ c (Proc.devRef .tc b) := by
  intro b hb
  simp only [carried, laterArgs, List.mem_cons, List.mem_singleton, List.not_mem_nil, or_false] at hb
  rcases hb with rfl | rfl | rfl | rfl | rfl | rfl | rfl | rfl | rfl | rfl | rfl | rfl | rfl | rfl | rfl
  all_goals
    show StableHlo.after hostOps2 (W4 m ρ c) _ = _
    after_results
    try rfl

/-- No carried buffer is a launch's output. -/
theorem carried_ne : ∀ b ∈ carried, b ≠ main_v17 ∧ b ≠ main_v31 ∧ b ≠ main_v45 := by decide

/-- A later argument is a carried buffer. -/
theorem later_carried : ∀ b ∈ laterArgs, b ∈ carried := fun b hb => List.mem_cons_of_mem _ (List.mem_cons_of_mem _ hb)

/-- A carried buffer holds after the second launch what it held after the first. -/
theorem W4_eq_W2 (b : Ref sig .tc) (hb : b ∈ carried) : W4 m ρ c (Proc.devRef .tc b) = W2 m ρ c (Proc.devRef .tc b) :=
  (W4_keep m ρ c b (carried_ne b hb).2.1).trans (host1_keep m ρ c b hb)

/-- A carried buffer holds after the third launch what it held after the second. -/
theorem W6_eq_W4 (b : Ref sig .tc) (hb : b ∈ carried) : W6 m ρ c (Proc.devRef .tc b) = W4 m ρ c (Proc.devRef .tc b) :=
  (W6_keep m ρ c b (carried_ne b hb).2.2).trans (host2_keep m ρ c b hb)

/-- A later argument after the first launch is as launched. -/
theorem W2_arg (b : Ref sig .tc) (hb : b ∈ laterArgs) : W2 m ρ c (Proc.devRef .tc b) = m ((c : Thread nD τ).loc b) :=
  (W2_keep m ρ c b (carried_ne b (later_carried b hb)).1).trans (host0_keep m ρ c b hb)

/-- A later argument after the second launch is as launched. -/
theorem W4_arg (b : Ref sig .tc) (hb : b ∈ laterArgs) : W4 m ρ c (Proc.devRef .tc b) = m ((c : Thread nD τ).loc b) :=
  (W4_eq_W2 m ρ c b (later_carried b hb)).trans (W2_arg m ρ c b hb)

/-- A later argument after the third launch is as launched. -/
theorem W6_arg (b : Ref sig .tc) (hb : b ∈ laterArgs) : W6 m ρ c (Proc.devRef .tc b) = m ((c : Thread nD τ).loc b) :=
  (W6_eq_W4 m ρ c b (later_carried b hb)).trans (W4_arg m ρ c b hb)

end Cert.KernelIdeal.Keep

end
-- ==== Proof.Payload.lean ====
/-
  The device body at an entry, and the perceptron row by row.

  Each launch's stored value is the two-layer perceptron of its five loaded blocks: at row p and column q it is
  act (∑ h, max (∑ k, x (p, k) · Wa (k, h) + ba (0, h)) 0 · Wb (h, q) + bb (0, q)), act the maximum with zero for
  the three graph layers and the identity for the read-out. The narrowing casts are the identity over the extended
  reals, the reshapes are between equal shapes, a product into a zero accumulator is the plain sum, and a one-row
  bias broadcast over the rows reads its row 0.

  A row of the perceptron depends on the same row of its first argument only: if row p of a block is row r of an
  array, then row p of the block's perceptron is row r of the array's, for the same weights and biases.
-/
import proofs.«181753_j22488448762768_2_alg».proof.Proof.Gen.KernelIdeal.Skeleton
import proofs.«181753_j22488448762768_2_alg».proof.Proof.Spec

noncomputable section

open scoped BigOperators

namespace Cert.Gin.Payload

open Cert.KernelIdeal Cert.KernelIdeal.Gen Idealize.ShloMosaic Idealize.ShloMosaic.ValueIdx Cert.Gin

/-- Launch 0's stored value at (p, q). -/
theorem k0_pay1_apply (v0 : Vec Ideal S8000x2 .f32) (v3 : Vec Ideal S2x16 .f32) (v5 : Vec Ideal S16x16 .f32)
    (v8 : Vec Ideal S1x16 .f32) (v17 : Vec Ideal S1x16 .f32) (p : Fin 8000) (q : Fin 16) :
    k0_pay1 (F := Ideal) v0 v3 v5 v8 v17 (ix2 p q) = mlpKAt relu v0 v3 v8 v5 v17 p q := by
  unfold k0_pay1 mlpKAt
  simp only [shapeCast_self]
  rw [maximumf_apply, addf_apply, broadcast_apply, broadcastTo_1b_ab_apply]
  unfold relu
  refine congrArg₂ max (congrArg (· + v17 (ix2 (0 : Fin 1) q)) ?_) Ideal.ofBits_zero_f32
  refine (Cert.PlainDot.matmul_zero_apply _ rfl rfl rfl rfl rfl rfl none _ _ p q).trans ?_
  refine Finset.sum_congr rfl fun h _ => ?_
  rw [truncf_apply, truncf_apply]
  exact congrArg (· * v5 (ix2 h q)) (Cert.Gin.hidden_apply _ rfl rfl rfl rfl rfl rfl _ _ v8 _ p h)

/-- Launch 0's stored value is the perceptron of its five blocks. -/
theorem k0_pay1_eq (v0 : Vec Ideal S8000x2 .f32) (v3 : Vec Ideal S2x16 .f32) (v5 : Vec Ideal S16x16 .f32)
    (v8 : Vec Ideal S1x16 .f32) (v17 : Vec Ideal S1x16 .f32) :
    k0_pay1 (F := Ideal) v0 v3 v5 v8 v17 = mlpK relu v0 v3 v8 v5 v17 := by
  funext j
  obtain ⟨p, q, rfl⟩ : ∃ (p : Fin 8000) (q : Fin 16), j = ix2 p q := ⟨j 0, j 1, eq_ix2 j⟩
  exact k0_pay1_apply v0 v3 v5 v8 v17 p q

/-- Launch 1's stored value at (p, q). -/
theorem k1_pay1_apply (v0 : Vec Ideal S8000x16 .f32) (v3 : Vec Ideal S16x16 .f32) (v5 : Vec Ideal S16x16 .f32)
    (v8 : Vec Ideal S1x16 .f32) (v17 : Vec Ideal S1x16 .f32) (p : Fin 8000) (q : Fin 16) :
    k1_pay1 (F := Ideal) v0 v3 v5 v8 v17 (ix2 p q) = mlpKAt relu v0 v3 v8 v5 v17 p q := by
  unfold k1_pay1 mlpKAt
  simp only [shapeCast_self]
  rw [maximumf_apply, addf_apply, broadcast_apply, broadcastTo_1b_ab_apply]
  unfold relu
  refine congrArg₂ max (congrArg (· + v17 (ix2 (0 : Fin 1) q)) ?_) Ideal.ofBits_zero_f32
  refine (Cert.PlainDot.matmul_zero_apply _ rfl rfl rfl rfl rfl rfl none _ _ p q).trans ?_
  refine Finset.sum_congr rfl fun h _ => ?_
  rw [truncf_apply, truncf_apply]
  exact congrArg (· * v5 (ix2 h q)) (Cert.Gin.hidden_apply _ rfl rfl rfl rfl rfl rfl _ _ v8 _ p h)

/-- Launch 1's stored value is the perceptron of its five blocks. -/
theorem k1_pay1_eq (v0 : Vec Ideal S8000x16 .f32) (v3 : Vec Ideal S16x16 .f32) (v5 : Vec Ideal S16x16 .f32)
    (v8 : Vec Ideal S1x16 .f32) (v17 : Vec Ideal S1x16 .f32) :
    k1_pay1 (F := Ideal) v0 v3 v5 v8 v17 = mlpK relu v0 v3 v8 v5 v17 := by
  funext j
  obtain ⟨p, q, rfl⟩ : ∃ (p : Fin 8000) (q : Fin 16), j = ix2 p q := ⟨j 0, j 1, eq_ix2 j⟩
  exact k1_pay1_apply v0 v3 v5 v8 v17 p q

/-- Launch 2's stored value at (p, q). -/
theorem k2_pay1_apply (v0 : Vec Ideal S8000x16 .f32) (v3 : Vec Ideal S16x16 .f32) (v5 : Vec Ideal S16x16 .f32)
    (v8 : Vec Ideal S1x16 .f32) (v17 : Vec Ideal S1x16 .f32) (p : Fin 8000) (q : Fin 16) :
    k2_pay1 (F := Ideal) v0 v3 v5 v8 v17 (ix2 p q) = mlpKAt relu v0 v3 v8 v5 v17 p q := by
  unfold k2_pay1 mlpKAt
  simp only [shapeCast_self]
  rw [maximumf_apply, addf_apply, broadcast_apply, broadcastTo_1b_ab_apply]
  unfold relu
  refine congrArg₂ max (congrArg (· + v17 (ix2 (0 : Fin 1) q)) ?_) Ideal.ofBits_zero_f32
  refine (Cert.PlainDot.matmul_zero_apply _ rfl rfl rfl rfl rfl rfl none _ _ p q).trans ?_
  refine Finset.sum_congr rfl fun h _ => ?_
  rw [truncf_apply, truncf_apply]
  exact congrArg (· * v5 (ix2 h q)) (Cert.Gin.hidden_apply _ rfl rfl rfl rfl rfl rfl _ _ v8 _ p h)

/-- Launch 2's stored value is the perceptron of its five blocks. -/
theorem k2_pay1_eq (v0 : Vec Ideal S8000x16 .f32) (v3 : Vec Ideal S16x16 .f32) (v5 : Vec Ideal S16x16 .f32)
    (v8 : Vec Ideal S1x16 .f32) (v17 : Vec Ideal S1x16 .f32) :
    k2_pay1 (F := Ideal) v0 v3 v5 v8 v17 = mlpK relu v0 v3 v8 v5 v17 := by
  funext j
  obtain ⟨p, q, rfl⟩ : ∃ (p : Fin 8000) (q : Fin 16), j = ix2 p q := ⟨j 0, j 1, eq_ix2 j⟩
  exact k2_pay1_apply v0 v3 v5 v8 v17 p q

/-- Launch 3's stored value at (p, q). -/
theorem k3_pay1_apply (v0 : Vec Ideal S2000x16 .f32) (v3 : Vec Ideal S16x16 .f32) (v5 : Vec Ideal S16x1 .f32)
    (v8 : Vec Ideal S1x16 .f32) (v17 : Vec Ideal S1x1 .f32) (p : Fin 2000) (q : Fin 1) :
    k3_pay1 (F := Ideal) v0 v3 v5 v8 v17 (ix2 p q) = mlpKAt id v0 v3 v8 v5 v17 p q := by
  unfold k3_pay1 mlpKAt
  simp only [shapeCast_self]
  rw [addf_apply, broadcastTo_1b_ab_apply, id_eq]
  refine congrArg (· + v17 (ix2 (0 : Fin 1) q)) ?_
  refine (Cert.PlainDot.matmul_zero_apply _ rfl rfl rfl rfl rfl rfl none _ _ p q).trans ?_
  refine Finset.sum_congr rfl fun h _ => ?_
  rw [truncf_apply, truncf_apply]
  exact congrArg (· * v5 (ix2 h q)) (Cert.Gin.hidden_apply _ rfl rfl rfl rfl rfl rfl _ _ v8 _ p h)

/-- Launch 3's stored value is the perceptron of its five blocks. -/
theorem k3_pay1_eq (v0 : Vec Ideal S2000x16 .f32) (v3 : Vec Ideal S16x16 .f32) (v5 : Vec Ideal S16x1 .f32)
    (v8 : Vec Ideal S1x16 .f32) (v17 : Vec Ideal S1x1 .f32) :
    k3_pay1 (F := Ideal) v0 v3 v5 v8 v17 = mlpK id v0 v3 v8 v5 v17 := by
  funext j
  obtain ⟨p, q, rfl⟩ : ∃ (p : Fin 2000) (q : Fin 1), j = ix2 p q := ⟨j 0, j 1, eq_ix2 j⟩
  exact k3_pay1_apply v0 v3 v5 v8 v17 p q

/-- A row of the perceptron reads the same row of its first argument and nothing else of it: where row p of a block
    is row r of an array and the weights and biases are the same, entry (p, q) of the block's perceptron is entry
    (r, q) of the array's. -/
theorem mlpK_row {B N K H O : Nat} (act : EReal → EReal)
    (x0 : FVec Ideal ⟨2, ![B, K]⟩ .f32) (x1 : FVec Ideal ⟨2, ![K, H]⟩ .f32) (x2 : FVec Ideal ⟨2, ![1, H]⟩ .f32)
    (x3 : FVec Ideal ⟨2, ![H, O]⟩ .f32) (x4 : FVec Ideal ⟨2, ![1, O]⟩ .f32)
    (X : FVec Ideal ⟨2, ![N, K]⟩ .f32) (Wa : FVec Ideal ⟨2, ![K, H]⟩ .f32) (ba : FVec Ideal ⟨2, ![1, H]⟩ .f32)
    (Wb : FVec Ideal ⟨2, ![H, O]⟩ .f32) (bb : FVec Ideal ⟨2, ![1, O]⟩ .f32)
    (j : (⟨2, ![B, O]⟩ : Shape).Idx) (i : (⟨2, ![N, O]⟩ : Shape).Idx) (p : Fin B) (q : Fin O) (r : Fin N)
    (hj : j = ix2 p q) (hi : i = ix2 r q) (h0 : ∀ k : Fin K, x0 (ix2 p k) = X (ix2 r k))
    (h1 : x1 = Wa) (h2 : x2 = ba) (h3 : x3 = Wb) (h4 : x4 = bb) :
    mlpK act x0 x1 x2 x3 x4 j = mlpK act X Wa ba Wb bb i := by
  subst hj hi h1 h2 h3 h4
  rw [mlpK_apply, mlpK_apply]
  unfold mlpKAt
  simp only [h0]

end Cert.Gin.Payload

end
-- ==== Proof.Tiles.lean ====
/-
  How the four launches cut their arrays into blocks.

  Each launch runs over a one-axis grid. At point t the input window and the output window are at row block t and
  column block 0, and the two weight and two bias windows are at block (0, 0), whole. The output blocks of a launch,
  8000 rows each at 25 points for the three graph layers and all 2000 rows at the one point of the read-out, tile the
  output array: row r belongs to the block of point r / 8000 (r / 2000), and every point writes its block back.
-/
import proofs.«181753_j22488448762768_2_alg».proof.Proof.Gen.KernelIdeal.Points
import Idealize.ShloMosaic.Lib.Pipeline.Value

set_option maxRecDepth 16384

noncomputable section

namespace Cert.KernelIdeal.Tiles

open Cert.KernelIdeal Cert.KernelIdeal.Gen Idealize.ShloMosaic Idealize.ShloMosaic.TcCoe Idealize.SL.Sem
open Idealize.ShloMosaic.Pipeline (Dat Cfg Window)

/-- The zero offsets of a whole-buffer access, as the constant function. -/
theorem zero_offsets : (![0, 0] : Fin 2 → Nat) = fun _ => 0 := funext fun a => by fin_cases a <;> rfl

/-! ## Launch 0 -/

/-- The block index maps of launch 0, decided over its grid: at point t the input and the output are at row block
    t, column block 0; the weights and biases are at block (0, 0). -/
theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Launch 0 has 25 points. -/
theorem points0 : cfg0.N = 25 := by decide

/-- An entry of the output array is in point t's block iff each coordinate is in the block's range on its axis. -/
theorem mem_blk0 (t : Fin cfg0.N) (i : S200000x16.Idx) :
    i ∈ ((cfg0.win 5).blk t).view.set ↔ ∀ a : Fin 2, win0_5.index t a * S8000x16.size a ≤ (i a).val
      ∧ (i a).val < win0_5.index t a * S8000x16.size a + S8000x16.size a := by
  show i ∈ ((View.whole main_v17).slice (win0_5.rect t)).set ↔ _
  rw [View.set_slice_whole, Rect.mem_set_unit]
  exact Iff.rfl

/-- The output blocks tile the output array: row r is in the block of point r / 8000, which is written back. -/
theorem cover0 (i : S200000x16.Idx) :
    ∃ t : Fin cfg0.N, (cfg0.win 5).flush t = true ∧ i ∈ ((cfg0.win 5).blk t).view.set := by
  have hi0 : (i 0).val < 200000 := (i 0).isLt
  have hi1 : (i 1).val < 16 := (i 1).isLt
  have ht : (i 0).val / 8000 < cfg0.N := by rw [points0]; omega
  obtain ⟨-, -, -, -, -, -, -, -, -, -, e0, e1⟩ := index0 ⟨(i 0).val / 8000, ht⟩
  have e0' : win0_5.index ⟨(i 0).val / 8000, ht⟩ (0 : Fin 2) = (i 0).val / 8000 := e0
  refine ⟨⟨(i 0).val / 8000, ht⟩, flush0_5 _, ?_⟩
  rw [mem_blk0]
  intro a
  match a with
  | ⟨0, _⟩ =>
    show win0_5.index ⟨(i 0).val / 8000, ht⟩ (0 : Fin 2) * 8000 ≤ (i 0).val
      ∧ (i 0).val < win0_5.index ⟨(i 0).val / 8000, ht⟩ (0 : Fin 2) * 8000 + 8000
    rw [e0']; omega
  | ⟨1, _⟩ =>
    show win0_5.index ⟨(i 0).val / 8000, ht⟩ (1 : Fin 2) * 16 ≤ (i 1).val
      ∧ (i 1).val < win0_5.index ⟨(i 0).val / 8000, ht⟩ (1 : Fin 2) * 16 + 16
    rw [e1]; omega

/-! ## Launch 1 -/

/-- The block index maps of launch 1, decided over its grid: at point t the input and the output are at row block
    t, column block 0; the weights and biases are at block (0, 0). -/
theorem index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Launch 1 has 25 points. -/
theorem points1 : cfg1.N = 25 := by decide

/-- An entry of the output array is in point t's block iff each coordinate is in the block's range on its axis. -/
theorem mem_blk1 (t : Fin cfg1.N) (i : S200000x16.Idx) :
    i ∈ ((cfg1.win 5).blk t).view.set ↔ ∀ a : Fin 2, win1_5.index t a * S8000x16.size a ≤ (i a).val
      ∧ (i a).val < win1_5.index t a * S8000x16.size a + S8000x16.size a := by
  show i ∈ ((View.whole main_v31).slice (win1_5.rect t)).set ↔ _
  rw [View.set_slice_whole, Rect.mem_set_unit]
  exact Iff.rfl

/-- The output blocks tile the output array: row r is in the block of point r / 8000, which is written back. -/
theorem cover1 (i : S200000x16.Idx) :
    ∃ t : Fin cfg1.N, (cfg1.win 5).flush t = true ∧ i ∈ ((cfg1.win 5).blk t).view.set := by
  have hi0 : (i 0).val < 200000 := (i 0).isLt
  have hi1 : (i 1).val < 16 := (i 1).isLt
  have ht : (i 0).val / 8000 < cfg1.N := by rw [points1]; omega
  obtain ⟨-, -, -, -, -, -, -, -, -, -, e0, e1⟩ := index1 ⟨(i 0).val / 8000, ht⟩
  have e0' : win1_5.index ⟨(i 0).val / 8000, ht⟩ (0 : Fin 2) = (i 0).val / 8000 := e0
  refine ⟨⟨(i 0).val / 8000, ht⟩, flush1_5 _, ?_⟩
  rw [mem_blk1]
  intro a
  match a with
  | ⟨0, _⟩ =>
    show win1_5.index ⟨(i 0).val / 8000, ht⟩ (0 : Fin 2) * 8000 ≤ (i 0).val
      ∧ (i 0).val < win1_5.index ⟨(i 0).val / 8000, ht⟩ (0 : Fin 2) * 8000 + 8000
    rw [e0']; omega
  | ⟨1, _⟩ =>
    show win1_5.index ⟨(i 0).val / 8000, ht⟩ (1 : Fin 2) * 16 ≤ (i 1).val
      ∧ (i 1).val < win1_5.index ⟨(i 0).val / 8000, ht⟩ (1 : Fin 2) * 16 + 16
    rw [e1]; omega

/-! ## Launch 2 -/

/-- The block index maps of launch 2, decided over its grid: at point t the input and the output are at row block
    t, column block 0; the weights and biases are at block (0, 0). -/
theorem index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Launch 2 has 25 points. -/
theorem points2 : cfg2.N = 25 := by decide

/-- An entry of the output array is in point t's block iff each coordinate is in the block's range on its axis. -/
theorem mem_blk2 (t : Fin cfg2.N) (i : S200000x16.Idx) :
    i ∈ ((cfg2.win 5).blk t).view.set ↔ ∀ a : Fin 2, win2_5.index t a * S8000x16.size a ≤ (i a).val
      ∧ (i a).val < win2_5.index t a * S8000x16.size a + S8000x16.size a := by
  show i ∈ ((View.whole main_v45).slice (win2_5.rect t)).set ↔ _
  rw [View.set_slice_whole, Rect.mem_set_unit]
  exact Iff.rfl

/-- The output blocks tile the output array: row r is in the block of point r / 8000, which is written back. -/
theorem cover2 (i : S200000x16.Idx) :
    ∃ t : Fin cfg2.N, (cfg2.win 5).flush t = true ∧ i ∈ ((cfg2.win 5).blk t).view.set := by
  have hi0 : (i 0).val < 200000 := (i 0).isLt
  have hi1 : (i 1).val < 16 := (i 1).isLt
  have ht : (i 0).val / 8000 < cfg2.N := by rw [points2]; omega
  obtain ⟨-, -, -, -, -, -, -, -, -, -, e0, e1⟩ := index2 ⟨(i 0).val / 8000, ht⟩
  have e0' : win2_5.index ⟨(i 0).val / 8000, ht⟩ (0 : Fin 2) = (i 0).val / 8000 := e0
  refine ⟨⟨(i 0).val / 8000, ht⟩, flush2_5 _, ?_⟩
  rw [mem_blk2]
  intro a
  match a with
  | ⟨0, _⟩ =>
    show win2_5.index ⟨(i 0).val / 8000, ht⟩ (0 : Fin 2) * 8000 ≤ (i 0).val
      ∧ (i 0).val < win2_5.index ⟨(i 0).val / 8000, ht⟩ (0 : Fin 2) * 8000 + 8000
    rw [e0']; omega
  | ⟨1, _⟩ =>
    show win2_5.index ⟨(i 0).val / 8000, ht⟩ (1 : Fin 2) * 16 ≤ (i 1).val
      ∧ (i 1).val < win2_5.index ⟨(i 0).val / 8000, ht⟩ (1 : Fin 2) * 16 + 16
    rw [e1]; omega

/-! ## Launch 3 -/

/-- The block index maps of launch 3, decided over its grid: at point t the input and the output are at row block
    t, column block 0; the weights and biases are at block (0, 0). -/
theorem index3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Launch 3 has 1 point. -/
theorem points3 : cfg3.N = 1 := by decide

/-- An entry of the output array is in point t's block iff each coordinate is in the block's range on its axis. -/
theorem mem_blk3 (t : Fin cfg3.N) (i : S2000x1.Idx) :
    i ∈ ((cfg3.win 5).blk t).view.set ↔ ∀ a : Fin 2, win3_5.index t a * S2000x1.size a ≤ (i a).val
      ∧ (i a).val < win3_5.index t a * S2000x1.size a + S2000x1.size a := by
  show i ∈ ((View.whole main_v51).slice (win3_5.rect t)).set ↔ _
  rw [View.set_slice_whole, Rect.mem_set_unit]
  exact Iff.rfl

/-- The output blocks tile the output array: row r is in the block of point r / 2000, which is written back. -/
theorem cover3 (i : S2000x1.Idx) :
    ∃ t : Fin cfg3.N, (cfg3.win 5).flush t = true ∧ i ∈ ((cfg3.win 5).blk t).view.set := by
  have hi0 : (i 0).val < 2000 := (i 0).isLt
  have hi1 : (i 1).val < 1 := (i 1).isLt
  have ht : (i 0).val / 2000 < cfg3.N := by rw [points3]; omega
  obtain ⟨-, -, -, -, -, -, -, -, -, -, e0, e1⟩ := index3 ⟨(i 0).val / 2000, ht⟩
  have e0' : win3_5.index ⟨(i 0).val / 2000, ht⟩ (0 : Fin 2) = (i 0).val / 2000 := e0
  refine ⟨⟨(i 0).val / 2000, ht⟩, flush3_5 _, ?_⟩
  rw [mem_blk3]
  intro a
  match a with
  | ⟨0, _⟩ =>
    show win3_5.index ⟨(i 0).val / 2000, ht⟩ (0 : Fin 2) * 2000 ≤ (i 0).val
      ∧ (i 0).val < win3_5.index ⟨(i 0).val / 2000, ht⟩ (0 : Fin 2) * 2000 + 2000
    rw [e0']; omega
  | ⟨1, _⟩ =>
    show win3_5.index ⟨(i 0).val / 2000, ht⟩ (1 : Fin 2) * 1 ≤ (i 1).val
      ∧ (i 1).val < win3_5.index ⟨(i 0).val / 2000, ht⟩ (1 : Fin 2) * 1 + 1
    rw [e1]; omega

end Cert.KernelIdeal.Tiles

end
-- ==== Proof.Final0.lean ====
/-
  What launch 0 leaves in its output array, as one function of the arrays it finds.

  The output is written back block by block; each block's rows are the perceptron of the same rows of the input
  block, with the weights and biases whole at every point; the blocks tile the array, so the array ends as the
  perceptron of the whole input.
-/
import proofs.«181753_j22488448762768_2_alg».proof.Proof.KernelIdealFrameP
import proofs.«181753_j22488448762768_2_alg».proof.Proof.Spec
import proofs.«181753_j22488448762768_2_alg».proof.Proof.Payload
import proofs.«181753_j22488448762768_2_alg».proof.Proof.Tiles

set_option maxRecDepth 16384

noncomputable section

namespace Cert.KernelIdeal.RegionValue

open Cert.KernelIdeal Cert.KernelIdeal.Gen Cert.KernelIdeal.GenP Idealize.ShloMosaic Idealize.ShloMosaic.TcCoe Idealize.ShloMosaic.ValueIdx Idealize.SL.Sem Cert.Gin
open Idealize.ShloMosaic.Pipeline (Dat Cfg Window)
open Cert.Gin.Payload Cert.KernelIdeal.Tiles

variable (V : (c : Dev nD) → (b : Ref sig .tc) → Buf (Elt Ideal) ((c : Thread nD τ).loc b))

/-- The input block at point t is rows 8000 t … 8000 t + 7999 of the input array: entry (p, k) of the block is
    entry (8000 t + p, k) of the array. -/
theorem in0_apply (c : Dev nD) (t : Fin cfg0.N) (p : Fin 8000) (k : Fin 2) (r : Fin 200000)
    (hr : r.val = t.val * 8000 + p.val) :
    (iblk0 (F := Ideal) V c 0 t : Vec Ideal S8000x2 .f32) (ix2 p k) = (V c main_v14 : Vec Ideal S200000x2 .f32) (ix2 r k) := by
  obtain ⟨e0, e1, -⟩ := index0 t
  unfold iblk0
  rw [View.read_apply]
  show V c main_v14 _ = V c main_v14 _
  congr 1
  funext a
  apply Fin.ext
  match a with
  | ⟨0, _⟩ => show win0_0.index t (0 : Fin 2) * 8000 + 1 * p.val = r.val; rw [e0, hr]; omega
  | ⟨1, _⟩ => show win0_0.index t (1 : Fin 2) * 2 + 1 * k.val = k.val; rw [e1]; omega

/-- The first weight matrix's block is the whole matrix at every point. -/
theorem wa0_eq (c : Dev nD) (t : Fin cfg0.N) :
    (iblk0 (F := Ideal) V c 1 t : Vec Ideal S2x16 .f32) = (V c main_arg3 : Vec Ideal S2x16 .f32) := by
  obtain ⟨-, -, e0, e1, -⟩ := index0 t
  funext y
  unfold iblk0
  rw [View.read_apply]
  show V c main_arg3 _ = V c main_arg3 y
  congr 1
  funext a
  apply Fin.ext
  match a with
  | ⟨0, _⟩ => show win0_1.index t (0 : Fin 2) * 2 + 1 * (y 0).val = (y 0).val; rw [e0]; omega
  | ⟨1, _⟩ => show win0_1.index t (1 : Fin 2) * 16 + 1 * (y 1).val = (y 1).val; rw [e1]; omega

/-- The first bias row's block is the whole row at every point. -/
theorem ba0_eq (c : Dev nD) (t : Fin cfg0.N) :
    (iblk0 (F := Ideal) V c 2 t : Vec Ideal S1x16 .f32) = (V c main_v15 : Vec Ideal S1x16 .f32) := by
  obtain ⟨-, -, -, -, e0, e1, -⟩ := index0 t
  funext y
  unfold iblk0
  rw [View.read_apply]
  show V c main_v15 _ = V c main_v15 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 16 + 1 * (y 1).val = (y 1).val; rw [e1]; omega

/-- The second weight matrix's block is the whole matrix at every point. -/
theorem wb0_eq (c : Dev nD) (t : Fin cfg0.N) :
    (iblk0 (F := Ideal) V c 3 t : Vec Ideal S16x16 .f32) = (V c main_arg5 : Vec Ideal S16x16 .f32) := by
  obtain ⟨-, -, -, -, -, -, e0, e1, -⟩ := index0 t
  funext y
  unfold iblk0
  rw [View.read_apply]
  show V c main_arg5 _ = V c main_arg5 y
  congr 1
  funext a
  apply Fin.ext
  match a with
  | ⟨0, _⟩ => show win0_3.index t (0 : Fin 2) * 16 + 1 * (y 0).val = (y 0).val; rw [e0]; omega
  | ⟨1, _⟩ => show win0_3.index t (1 : Fin 2) * 16 + 1 * (y 1).val = (y 1).val; rw [e1]; omega

/-- The second bias row's block is the whole row at every point. -/
theorem bb0_eq (c : Dev nD) (t : Fin cfg0.N) :
    (iblk0 (F := Ideal) V c 4 t : Vec Ideal S1x16 .f32) = (V c main_v16 : Vec Ideal S1x16 .f32) := by
  obtain ⟨-, -, -, -, -, -, -, -, e0, e1, -⟩ := index0 t
  funext y
  unfold iblk0
  rw [View.read_apply]
  show V c main_v16 _ = V c main_v16 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 16 + 1 * (y 1).val = (y 1).val; rw [e1]; omega

/-- What point t writes back is block t of the perceptron of the arrays the launch finds. -/
theorem flushed0 (c : Dev nD) (t : Fin cfg0.N) :
    (dat0 (F := Ideal) V c).flushed 5 t = ((cfg0.win 5).blk t).view.read (Elt Ideal)
      (mlpK relu (V c main_v14) (V c main_arg3) (V c main_v15) (V c main_arg5) (V c main_v16)) := by
  show (cfg0.win 5).cut (grid0.coords t) ((dat0 (F := Ideal) V c).after 5 t) = _
  rw [after0_5]
  unfold out0_5
  rw [View.canon_unit_zero zero_offsets]
  simp only [View.ld_unit_zero (S := S8000x2) zero_offsets,
    View.ld_unit_zero (S := S2x16) zero_offsets,
    View.ld_unit_zero (S := S16x16) zero_offsets,
    View.ld_unit_zero (S := S1x16) zero_offsets]
  rw [k0_pay1_eq (iblk0 V c 0 t) (iblk0 V c 1 t) (iblk0 V c 3 t) (iblk0 V c 2 t) (iblk0 V c 4 t)]
  obtain ⟨-, -, -, -, -, -, -, -, -, -, e0, e1⟩ := index0 t
  have ht : t.val < 25 := lt_of_lt_of_eq t.isLt points0
  funext j
  have hp : (j 0).val < 8000 := (j 0).isLt
  have hq : (j 1).val < 16 := (j 1).isLt
  show mlpK relu (iblk0 V c 0 t : Vec Ideal S8000x2 .f32) (iblk0 V c 1 t : Vec Ideal S2x16 .f32)
      (iblk0 V c 2 t : Vec Ideal S1x16 .f32) (iblk0 V c 3 t : Vec Ideal S16x16 .f32) (iblk0 V c 4 t : Vec Ideal S1x16 .f32)
      ((cfg0.win 5).xinj (grid0.coords t) j)
    = mlpK relu (V c main_v14) (V c main_arg3) (V c main_v15) (V c main_arg5) (V c main_v16) (((cfg0.win 5).blk t).view.emb j)
  exact mlpK_row (B := 8000) (N := 200000) (K := 2) (H := 16) (O := 16) relu _ _ _ _ _ _ _ _ _ _ _ _ ⟨(j 0).val, hp⟩ ⟨(j 1).val, hq⟩ ⟨t.val * 8000 + (j 0).val, by omega⟩
    (funext fun a => Fin.ext (by match a with | ⟨0, _⟩ => rfl | ⟨1, _⟩ => rfl))
    (funext fun a => Fin.ext (by
      match a with
      | ⟨0, _⟩ =>
        show win0_5.index t (0 : Fin 2) * 8000 + 1 * (j 0).val = t.val * 8000 + (j 0).val
        rw [e0]; omega
      | ⟨1, _⟩ =>
        show win0_5.index t (1 : Fin 2) * 16 + 1 * (j 1).val = (j 1).val
        rw [e1]; omega))
    (fun k => in0_apply V c t _ k _ rfl) (wa0_eq V c t) (ba0_eq V c t) (wb0_eq V c t) (bb0_eq V c t)

/-- The output array after launch 0. -/
theorem final0 (c : Dev nD) : (dat0 (F := Ideal) V c).arrAt 5 cfg0.N
    = mlpK relu (V c main_v14) (V c main_arg3) (V c main_v15) (V c main_arg5) (V c main_v16) :=
  (dat0 (F := Ideal) V c).arrAt_eq_of_cover 5 _ (fun t _ => flushed0 V c t) cover0

end Cert.KernelIdeal.RegionValue

end
-- ==== Proof.Final1.lean ====
/-
  What launch 1 leaves in its output array, as one function of the arrays it finds.

  The output is written back block by block; each block's rows are the perceptron of the same rows of the input
  block, with the weights and biases whole at every point; the blocks tile the array, so the array ends as the
  perceptron of the whole input.
-/
import proofs.«181753_j22488448762768_2_alg».proof.Proof.KernelIdealFrameP
import proofs.«181753_j22488448762768_2_alg».proof.Proof.Spec
import proofs.«181753_j22488448762768_2_alg».proof.Proof.Payload
import proofs.«181753_j22488448762768_2_alg».proof.Proof.Tiles

set_option maxRecDepth 16384

noncomputable section

namespace Cert.KernelIdeal.RegionValue

open Cert.KernelIdeal Cert.KernelIdeal.Gen Cert.KernelIdeal.GenP Idealize.ShloMosaic Idealize.ShloMosaic.TcCoe Idealize.ShloMosaic.ValueIdx Idealize.SL.Sem Cert.Gin
open Idealize.ShloMosaic.Pipeline (Dat Cfg Window)
open Cert.Gin.Payload Cert.KernelIdeal.Tiles

variable (V : (c : Dev nD) → (b : Ref sig .tc) → Buf (Elt Ideal) ((c : Thread nD τ).loc b))

/-- The input block at point t is rows 8000 t … 8000 t + 7999 of the input array: entry (p, k) of the block is
    entry (8000 t + p, k) of the array. -/
theorem in1_apply (c : Dev nD) (t : Fin cfg1.N) (p : Fin 8000) (k : Fin 16) (r : Fin 200000)
    (hr : r.val = t.val * 8000 + p.val) :
    (iblk1 (F := Ideal) V c 0 t : Vec Ideal S8000x16 .f32) (ix2 p k) = (V c main_v28 : Vec Ideal S200000x16 .f32) (ix2 r k) := by
  obtain ⟨e0, e1, -⟩ := index1 t
  unfold iblk1
  rw [View.read_apply]
  show V c main_v28 _ = V c main_v28 _
  congr 1
  funext a
  apply Fin.ext
  match a with
  | ⟨0, _⟩ => show win1_0.index t (0 : Fin 2) * 8000 + 1 * p.val = r.val; rw [e0, hr]; omega
  | ⟨1, _⟩ => show win1_0.index t (1 : Fin 2) * 16 + 1 * k.val = k.val; rw [e1]; omega

/-- The first weight matrix's block is the whole matrix at every point. -/
theorem wa1_eq (c : Dev nD) (t : Fin cfg1.N) :
    (iblk1 (F := Ideal) V c 1 t : Vec Ideal S16x16 .f32) = (V c main_arg7 : Vec Ideal S16x16 .f32) := by
  obtain ⟨-, -, e0, e1, -⟩ := index1 t
  funext y
  unfold iblk1
  rw [View.read_apply]
  show V c main_arg7 _ = V c main_arg7 y
  congr 1
  funext a
  apply Fin.ext
  match a with
  | ⟨0, _⟩ => show win1_1.index t (0 : Fin 2) * 16 + 1 * (y 0).val = (y 0).val; rw [e0]; omega
  | ⟨1, _⟩ => show win1_1.index t (1 : Fin 2) * 16 + 1 * (y 1).val = (y 1).val; rw [e1]; omega

/-- The first bias row's block is the whole row at every point. -/
theorem ba1_eq (c : Dev nD) (t : Fin cfg1.N) :
    (iblk1 (F := Ideal) V c 2 t : Vec Ideal S1x16 .f32) = (V c main_v29 : Vec Ideal S1x16 .f32) := by
  obtain ⟨-, -, -, -, e0, e1, -⟩ := index1 t
  funext y
  unfold iblk1
  rw [View.read_apply]
  show V c main_v29 _ = V c main_v29 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 16 + 1 * (y 1).val = (y 1).val; rw [e1]; omega

/-- The second weight matrix's block is the whole matrix at every point. -/
theorem wb1_eq (c : Dev nD) (t : Fin cfg1.N) :
    (iblk1 (F := Ideal) V c 3 t : Vec Ideal S16x16 .f32) = (V c main_arg9 : Vec Ideal S16x16 .f32) := by
  obtain ⟨-, -, -, -, -, -, e0, e1, -⟩ := index1 t
  funext y
  unfold iblk1
  rw [View.read_apply]
  show V c main_arg9 _ = V c main_arg9 y
  congr 1
  funext a
  apply Fin.ext
  match a with
  | ⟨0, _⟩ => show win1_3.index t (0 : Fin 2) * 16 + 1 * (y 0).val = (y 0).val; rw [e0]; omega
  | ⟨1, _⟩ => show win1_3.index t (1 : Fin 2) * 16 + 1 * (y 1).val = (y 1).val; rw [e1]; omega

/-- The second bias row's block is the whole row at every point. -/
theorem bb1_eq (c : Dev nD) (t : Fin cfg1.N) :
    (iblk1 (F := Ideal) V c 4 t : Vec Ideal S1x16 .f32) = (V c main_v30 : Vec Ideal S1x16 .f32) := by
  obtain ⟨-, -, -, -, -, -, -, -, e0, e1, -⟩ := index1 t
  funext y
  unfold iblk1
  rw [View.read_apply]
  show V c main_v30 _ = V c main_v30 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 16 + 1 * (y 1).val = (y 1).val; rw [e1]; omega

/-- What point t writes back is block t of the perceptron of the arrays the launch finds. -/
theorem flushed1 (c : Dev nD) (t : Fin cfg1.N) :
    (dat1 (F := Ideal) V c).flushed 5 t = ((cfg1.win 5).blk t).view.read (Elt Ideal)
      (mlpK relu (V c main_v28) (V c main_arg7) (V c main_v29) (V c main_arg9) (V c main_v30)) := by
  show (cfg1.win 5).cut (grid1.coords t) ((dat1 (F := Ideal) V c).after 5 t) = _
  rw [after1_5]
  unfold out1_5
  rw [View.canon_unit_zero zero_offsets]
  simp only [View.ld_unit_zero (S := S8000x16) zero_offsets,
    View.ld_unit_zero (S := S16x16) zero_offsets,
    View.ld_unit_zero (S := S1x16) zero_offsets]
  rw [k1_pay1_eq (iblk1 V c 0 t) (iblk1 V c 1 t) (iblk1 V c 3 t) (iblk1 V c 2 t) (iblk1 V c 4 t)]
  obtain ⟨-, -, -, -, -, -, -, -, -, -, e0, e1⟩ := index1 t
  have ht : t.val < 25 := lt_of_lt_of_eq t.isLt points1
  funext j
  have hp : (j 0).val < 8000 := (j 0).isLt
  have hq : (j 1).val < 16 := (j 1).isLt
  show mlpK relu (iblk1 V c 0 t : Vec Ideal S8000x16 .f32) (iblk1 V c 1 t : Vec Ideal S16x16 .f32)
      (iblk1 V c 2 t : Vec Ideal S1x16 .f32) (iblk1 V c 3 t : Vec Ideal S16x16 .f32) (iblk1 V c 4 t : Vec Ideal S1x16 .f32)
      ((cfg1.win 5).xinj (grid1.coords t) j)
    = mlpK relu (V c main_v28) (V c main_arg7) (V c main_v29) (V c main_arg9) (V c main_v30) (((cfg1.win 5).blk t).view.emb j)
  exact mlpK_row (B := 8000) (N := 200000) (K := 16) (H := 16) (O := 16) relu _ _ _ _ _ _ _ _ _ _ _ _ ⟨(j 0).val, hp⟩ ⟨(j 1).val, hq⟩ ⟨t.val * 8000 + (j 0).val, by omega⟩
    (funext fun a => Fin.ext (by match a with | ⟨0, _⟩ => rfl | ⟨1, _⟩ => rfl))
    (funext fun a => Fin.ext (by
      match a with
      | ⟨0, _⟩ =>
        show win1_5.index t (0 : Fin 2) * 8000 + 1 * (j 0).val = t.val * 8000 + (j 0).val
        rw [e0]; omega
      | ⟨1, _⟩ =>
        show win1_5.index t (1 : Fin 2) * 16 + 1 * (j 1).val = (j 1).val
        rw [e1]; omega))
    (fun k => in1_apply V c t _ k _ rfl) (wa1_eq V c t) (ba1_eq V c t) (wb1_eq V c t) (bb1_eq V c t)

/-- The output array after launch 1. -/
theorem final1 (c : Dev nD) : (dat1 (F := Ideal) V c).arrAt 5 cfg1.N
    = mlpK relu (V c main_v28) (V c main_arg7) (V c main_v29) (V c main_arg9) (V c main_v30) :=
  (dat1 (F := Ideal) V c).arrAt_eq_of_cover 5 _ (fun t _ => flushed1 V c t) cover1

end Cert.KernelIdeal.RegionValue

end
-- ==== Proof.Final2.lean ====
/-
  What launch 2 leaves in its output array, as one function of the arrays it finds.

  The output is written back block by block; each block's rows are the perceptron of the same rows of the input
  block, with the weights and biases whole at every point; the blocks tile the array, so the array ends as the
  perceptron of the whole input.
-/
import proofs.«181753_j22488448762768_2_alg».proof.Proof.KernelIdealFrameP
import proofs.«181753_j22488448762768_2_alg».proof.Proof.Spec
import proofs.«181753_j22488448762768_2_alg».proof.Proof.Payload
import proofs.«181753_j22488448762768_2_alg».proof.Proof.Tiles

set_option maxRecDepth 16384

noncomputable section

namespace Cert.KernelIdeal.RegionValue

open Cert.KernelIdeal Cert.KernelIdeal.Gen Cert.KernelIdeal.GenP Idealize.ShloMosaic Idealize.ShloMosaic.TcCoe Idealize.ShloMosaic.ValueIdx Idealize.SL.Sem Cert.Gin
open Idealize.ShloMosaic.Pipeline (Dat Cfg Window)
open Cert.Gin.Payload Cert.KernelIdeal.Tiles

variable (V : (c : Dev nD) → (b : Ref sig .tc) → Buf (Elt Ideal) ((c : Thread nD τ).loc b))

/-- The input block at point t is rows 8000 t … 8000 t + 7999 of the input array: entry (p, k) of the block is
    entry (8000 t + p, k) of the array. -/
theorem in2_apply (c : Dev nD) (t : Fin cfg2.N) (p : Fin 8000) (k : Fin 16) (r : Fin 200000)
    (hr : r.val = t.val * 8000 + p.val) :
    (iblk2 (F := Ideal) V c 0 t : Vec Ideal S8000x16 .f32) (ix2 p k) = (V c main_v42 : Vec Ideal S200000x16 .f32) (ix2 r k) := by
  obtain ⟨e0, e1, -⟩ := index2 t
  unfold iblk2
  rw [View.read_apply]
  show V c main_v42 _ = V c main_v42 _
  congr 1
  funext a
  apply Fin.ext
  match a with
  | ⟨0, _⟩ => show win2_0.index t (0 : Fin 2) * 8000 + 1 * p.val = r.val; rw [e0, hr]; omega
  | ⟨1, _⟩ => show win2_0.index t (1 : Fin 2) * 16 + 1 * k.val = k.val; rw [e1]; omega

/-- The first weight matrix's block is the whole matrix at every point. -/
theorem wa2_eq (c : Dev nD) (t : Fin cfg2.N) :
    (iblk2 (F := Ideal) V c 1 t : Vec Ideal S16x16 .f32) = (V c main_arg11 : Vec Ideal S16x16 .f32) := by
  obtain ⟨-, -, e0, e1, -⟩ := index2 t
  funext y
  unfold iblk2
  rw [View.read_apply]
  show V c main_arg11 _ = V c main_arg11 y
  congr 1
  funext a
  apply Fin.ext
  match a with
  | ⟨0, _⟩ => show win2_1.index t (0 : Fin 2) * 16 + 1 * (y 0).val = (y 0).val; rw [e0]; omega
  | ⟨1, _⟩ => show win2_1.index t (1 : Fin 2) * 16 + 1 * (y 1).val = (y 1).val; rw [e1]; omega

/-- The first bias row's block is the whole row at every point. -/
theorem ba2_eq (c : Dev nD) (t : Fin cfg2.N) :
    (iblk2 (F := Ideal) V c 2 t : Vec Ideal S1x16 .f32) = (V c main_v43 : Vec Ideal S1x16 .f32) := by
  obtain ⟨-, -, -, -, e0, e1, -⟩ := index2 t
  funext y
  unfold iblk2
  rw [View.read_apply]
  show V c main_v43 _ = V c main_v43 y
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 16 + 1 * (y 1).val = (y 1).val; rw [e1]; omega

/-- The second weight matrix's block is the whole matrix at every point. -/
theorem wb2_eq (c : Dev nD) (t : Fin cfg2.N) :
    (iblk2 (F := Ideal) V c 3 t : Vec Ideal S16x16 .f32) = (V c main_arg13 : Vec Ideal S16x16 .f32) := by
  obtain ⟨-, -, -, -, -, -, e0, e1, -⟩ := index2 t
  funext y
  unfold iblk2
  rw [View.read_apply]
  show V c main_arg13 _ = V c main_arg13 y
  congr 1
  funext a
  apply Fin.ext
  match a with
  | ⟨0, _⟩ => show win2_3.index t (0 : Fin 2) * 16 + 1 * (y 0).val = (y 0).val; rw [e0]; omega
  | ⟨1, _⟩ => show win2_3.index t (1 : Fin 2) * 16 + 1 * (y 1).val = (y 1).val; rw [e1]; omega

/-- The second bias row's block is the whole row at every point. -/
theorem bb2_eq (c : Dev nD) (t : Fin cfg2.N) :
    (iblk2 (F := Ideal) V c 4 t : Vec Ideal S1x16 .f32) = (V c main_v44 : Vec Ideal S1x16 .f32) := by
  obtain ⟨-, -, -, -, -, -, -, -, e0, e1, -⟩ := index2 t
  funext y
  unfold iblk2
  rw [View.read_apply]
  show V c main_v44 _ = V c main_v44 y
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 16 + 1 * (y 1).val = (y 1).val; rw [e1]; omega

/-- What point t writes back is block t of the perceptron of the arrays the launch finds. -/
theorem flushed2 (c : Dev nD) (t : Fin cfg2.N) :
    (dat2 (F := Ideal) V c).flushed 5 t = ((cfg2.win 5).blk t).view.read (Elt Ideal)
      (mlpK relu (V c main_v42) (V c main_arg11) (V c main_v43) (V c main_arg13) (V c main_v44)) := by
  show (cfg2.win 5).cut (grid2.coords t) ((dat2 (F := Ideal) V c).after 5 t) = _
  rw [after2_5]
  unfold out2_5
  rw [View.canon_unit_zero zero_offsets]
  simp only [View.ld_unit_zero (S := S8000x16) zero_offsets,
    View.ld_unit_zero (S := S16x16) zero_offsets,
    View.ld_unit_zero (S := S1x16) zero_offsets]
  rw [k2_pay1_eq (iblk2 V c 0 t) (iblk2 V c 1 t) (iblk2 V c 3 t) (iblk2 V c 2 t) (iblk2 V c 4 t)]
  obtain ⟨-, -, -, -, -, -, -, -, -, -, e0, e1⟩ := index2 t
  have ht : t.val < 25 := lt_of_lt_of_eq t.isLt points2
  funext j
  have hp : (j 0).val < 8000 := (j 0).isLt
  have hq : (j 1).val < 16 := (j 1).isLt
  show mlpK relu (iblk2 V c 0 t : Vec Ideal S8000x16 .f32) (iblk2 V c 1 t : Vec Ideal S16x16 .f32)
      (iblk2 V c 2 t : Vec Ideal S1x16 .f32) (iblk2 V c 3 t : Vec Ideal S16x16 .f32) (iblk2 V c 4 t : Vec Ideal S1x16 .f32)
      ((cfg2.win 5).xinj (grid2.coords t) j)
    = mlpK relu (V c main_v42) (V c main_arg11) (V c main_v43) (V c main_arg13) (V c main_v44) (((cfg2.win 5).blk t).view.emb j)
  exact mlpK_row (B := 8000) (N := 200000) (K := 16) (H := 16) (O := 16) relu _ _ _ _ _ _ _ _ _ _ _ _ ⟨(j 0).val, hp⟩ ⟨(j 1).val, hq⟩ ⟨t.val * 8000 + (j 0).val, by omega⟩
    (funext fun a => Fin.ext (by match a with | ⟨0, _⟩ => rfl | ⟨1, _⟩ => rfl))
    (funext fun a => Fin.ext (by
      match a with
      | ⟨0, _⟩ =>
        show win2_5.index t (0 : Fin 2) * 8000 + 1 * (j 0).val = t.val * 8000 + (j 0).val
        rw [e0]; omega
      | ⟨1, _⟩ =>
        show win2_5.index t (1 : Fin 2) * 16 + 1 * (j 1).val = (j 1).val
        rw [e1]; omega))
    (fun k => in2_apply V c t _ k _ rfl) (wa2_eq V c t) (ba2_eq V c t) (wb2_eq V c t) (bb2_eq V c t)

/-- The output array after launch 2. -/
theorem final2 (c : Dev nD) : (dat2 (F := Ideal) V c).arrAt 5 cfg2.N
    = mlpK relu (V c main_v42) (V c main_arg11) (V c main_v43) (V c main_arg13) (V c main_v44) :=
  (dat2 (F := Ideal) V c).arrAt_eq_of_cover 5 _ (fun t _ => flushed2 V c t) cover2

end Cert.KernelIdeal.RegionValue

end
-- ==== Proof.Final3.lean ====
/-
  What launch 3 leaves in its output array, as one function of the arrays it finds.

  The output is written back block by block; each block's rows are the perceptron of the same rows of the input
  block, with the weights and biases whole at every point; the blocks tile the array, so the array ends as the
  perceptron of the whole input.
-/
import proofs.«181753_j22488448762768_2_alg».proof.Proof.KernelIdealFrameP
import proofs.«181753_j22488448762768_2_alg».proof.Proof.Spec
import proofs.«181753_j22488448762768_2_alg».proof.Proof.Payload
import proofs.«181753_j22488448762768_2_alg».proof.Proof.Tiles

set_option maxRecDepth 16384

noncomputable section

namespace Cert.KernelIdeal.RegionValue

open Cert.KernelIdeal Cert.KernelIdeal.Gen Cert.KernelIdeal.GenP Idealize.ShloMosaic Idealize.ShloMosaic.TcCoe Idealize.ShloMosaic.ValueIdx Idealize.SL.Sem Cert.Gin
open Idealize.ShloMosaic.Pipeline (Dat Cfg Window)
open Cert.Gin.Payload Cert.KernelIdeal.Tiles

variable (V : (c : Dev nD) → (b : Ref sig .tc) → Buf (Elt Ideal) ((c : Thread nD τ).loc b))

/-- The input block at point t is rows 2000 t … 2000 t + 1999 of the input array: entry (p, k) of the block is
    entry (2000 t + p, k) of the array. -/
theorem in3_apply (c : Dev nD) (t : Fin cfg3.N) (p : Fin 2000) (k : Fin 16) (r : Fin 2000)
    (hr : r.val = t.val * 2000 + p.val) :
    (iblk3 (F := Ideal) V c 0 t : Vec Ideal S2000x16 .f32) (ix2 p k) = (V c main_v48 : Vec Ideal S2000x16 .f32) (ix2 r k) := by
  obtain ⟨e0, e1, -⟩ := index3 t
  unfold iblk3
  rw [View.read_apply]
  show V c main_v48 _ = V c main_v48 _
  congr 1
  funext a
  apply Fin.ext
  match a with
  | ⟨0, _⟩ => show win3_0.index t (0 : Fin 2) * 2000 + 1 * p.val = r.val; rw [e0, hr]; omega
  | ⟨1, _⟩ => show win3_0.index t (1 : Fin 2) * 16 + 1 * k.val = k.val; rw [e1]; omega

/-- The first weight matrix's block is the whole matrix at every point. -/
theorem wa3_eq (c : Dev nD) (t : Fin cfg3.N) :
    (iblk3 (F := Ideal) V c 1 t : Vec Ideal S16x16 .f32) = (V c main_arg15 : Vec Ideal S16x16 .f32) := by
  obtain ⟨-, -, e0, e1, -⟩ := index3 t
  funext y
  unfold iblk3
  rw [View.read_apply]
  show V c main_arg15 _ = V c main_arg15 y
  congr 1
  funext a
  apply Fin.ext
  match a with
  | ⟨0, _⟩ => show win3_1.index t (0 : Fin 2) * 16 + 1 * (y 0).val = (y 0).val; rw [e0]; omega
  | ⟨1, _⟩ => show win3_1.index t (1 : Fin 2) * 16 + 1 * (y 1).val = (y 1).val; rw [e1]; omega

/-- The first bias row's block is the whole row at every point. -/
theorem ba3_eq (c : Dev nD) (t : Fin cfg3.N) :
    (iblk3 (F := Ideal) V c 2 t : Vec Ideal S1x16 .f32) = (V c main_v49 : Vec Ideal S1x16 .f32) := by
  obtain ⟨-, -, -, -, e0, e1, -⟩ := index3 t
  funext y
  unfold iblk3
  rw [View.read_apply]
  show V c main_v49 _ = V c main_v49 y
  congr 1
  funext a
  apply Fin.ext
  match a with
  | ⟨0, _⟩ => show win3_2.index t (0 : Fin 2) * 1 + 1 * (y 0).val = (y 0).val; rw [e0]; omega
  | ⟨1, _⟩ => show win3_2.index t (1 : Fin 2) * 16 + 1 * (y 1).val = (y 1).val; rw [e1]; omega

/-- The second weight matrix's block is the whole matrix at every point. -/
theorem wb3_eq (c : Dev nD) (t : Fin cfg3.N) :
    (iblk3 (F := Ideal) V c 3 t : Vec Ideal S16x1 .f32) = (V c main_arg17 : Vec Ideal S16x1 .f32) := by
  obtain ⟨-, -, -, -, -, -, e0, e1, -⟩ := index3 t
  funext y
  unfold iblk3
  rw [View.read_apply]
  show V c main_arg17 _ = V c main_arg17 y
  congr 1
  funext a
  apply Fin.ext
  match a with
  | ⟨0, _⟩ => show win3_3.index t (0 : Fin 2) * 16 + 1 * (y 0).val = (y 0).val; rw [e0]; omega
  | ⟨1, _⟩ => show win3_3.index t (1 : Fin 2) * 1 + 1 * (y 1).val = (y 1).val; rw [e1]; omega

/-- The second bias row's block is the whole row at every point. -/
theorem bb3_eq (c : Dev nD) (t : Fin cfg3.N) :
    (iblk3 (F := Ideal) V c 4 t : Vec Ideal S1x1 .f32) = (V c main_v50 : Vec Ideal S1x1 .f32) := by
  obtain ⟨-, -, -, -, -, -, -, -, e0, e1, -⟩ := index3 t
  funext y
  unfold iblk3
  rw [View.read_apply]
  show V c main_v50 _ = V c main_v50 y
  congr 1
  funext a
  apply Fin.ext
  match a with
  | ⟨0, _⟩ => show win3_4.index t (0 : Fin 2) * 1 + 1 * (y 0).val = (y 0).val; rw [e0]; omega
  | ⟨1, _⟩ => show win3_4.index t (1 : Fin 2) * 1 + 1 * (y 1).val = (y 1).val; rw [e1]; omega

/-- What point t writes back is block t of the perceptron of the arrays the launch finds. -/
theorem flushed3 (c : Dev nD) (t : Fin cfg3.N) :
    (dat3 (F := Ideal) V c).flushed 5 t = ((cfg3.win 5).blk t).view.read (Elt Ideal)
      (mlpK id (V c main_v48) (V c main_arg15) (V c main_v49) (V c main_arg17) (V c main_v50)) := by
  show (cfg3.win 5).cut (grid3.coords t) ((dat3 (F := Ideal) V c).after 5 t) = _
  rw [after3_5]
  unfold out3_5
  rw [View.canon_unit_zero zero_offsets]
  simp only [View.ld_unit_zero (S := S2000x16) zero_offsets,
    View.ld_unit_zero (S := S16x16) zero_offsets,
    View.ld_unit_zero (S := S16x1) zero_offsets,
    View.ld_unit_zero (S := S1x16) zero_offsets,
    View.ld_unit_zero (S := S1x1) zero_offsets]
  rw [k3_pay1_eq (iblk3 V c 0 t) (iblk3 V c 1 t) (iblk3 V c 3 t) (iblk3 V c 2 t) (iblk3 V c 4 t)]
  obtain ⟨-, -, -, -, -, -, -, -, -, -, e0, e1⟩ := index3 t
  have ht : t.val < 1 := lt_of_lt_of_eq t.isLt points3
  funext j
  have hp : (j 0).val < 2000 := (j 0).isLt
  have hq : (j 1).val < 1 := (j 1).isLt
  show mlpK id (iblk3 V c 0 t : Vec Ideal S2000x16 .f32) (iblk3 V c 1 t : Vec Ideal S16x16 .f32)
      (iblk3 V c 2 t : Vec Ideal S1x16 .f32) (iblk3 V c 3 t : Vec Ideal S16x1 .f32) (iblk3 V c 4 t : Vec Ideal S1x1 .f32)
      ((cfg3.win 5).xinj (grid3.coords t) j)
    = mlpK id (V c main_v48) (V c main_arg15) (V c main_v49) (V c main_arg17) (V c main_v50) (((cfg3.win 5).blk t).view.emb j)
  exact mlpK_row (B := 2000) (N := 2000) (K := 16) (H := 16) (O := 1) id _ _ _ _ _ _ _ _ _ _ _ _ ⟨(j 0).val, hp⟩ ⟨(j 1).val, hq⟩ ⟨t.val * 2000 + (j 0).val, by omega⟩
    (funext fun a => Fin.ext (by match a with | ⟨0, _⟩ => rfl | ⟨1, _⟩ => rfl))
    (funext fun a => Fin.ext (by
      match a with
      | ⟨0, _⟩ =>
        show win3_5.index t (0 : Fin 2) * 2000 + 1 * (j 0).val = t.val * 2000 + (j 0).val
        rw [e0]; omega
      | ⟨1, _⟩ =>
        show win3_5.index t (1 : Fin 2) * 1 + 1 * (j 1).val = (j 1).val
        rw [e1]; omega))
    (fun k => in3_apply V c t _ k _ rfl) (wa3_eq V c t) (ba3_eq V c t) (wb3_eq V c t) (bb3_eq V c t)

/-- The output array after launch 3. -/
theorem final3 (c : Dev nD) : (dat3 (F := Ideal) V c).arrAt 5 cfg3.N
    = mlpK id (V c main_v48) (V c main_arg15) (V c main_v49) (V c main_arg17) (V c main_v50) :=
  (dat3 (F := Ideal) V c).arrAt_eq_of_cover 5 _ (fun t _ => flushed3 V c t) cover3

end Cert.KernelIdeal.RegionValue

end
-- ==== Proof.RefMlp.lean ====
/-
  The reference's dense stages are the two-layer perceptron.

  Each graph layer of the reference is a matrix product, a bias broadcast over the rows, a maximum with zero, a
  second product, a second bias and a second maximum with zero; the read-out is the same without the last maximum.
  Read entry by entry these are the perceptron of the specification applied to the aggregated features.
-/
import proofs.«181753_j22488448762768_2_alg».proof.Proof.Gen.ReferenceIdeal.Read
import proofs.«181753_j22488448762768_2_alg».proof.Proof.Spec

noncomputable section

namespace Cert.ReferenceIdeal.RefValue

open Cert.ReferenceIdeal Cert.ReferenceIdeal.Read Idealize.ShloMosaic Idealize.ShloMosaic.ValueIdx Cert.Gin

variable (x0 : (⟨S200000x2, .f32⟩ : BufTy).Contents (Elt Ideal)) (x1 : (⟨S2x6400000, .i32⟩ : BufTy).Contents (Elt Ideal)) (x2 : (⟨S200000, .i32⟩ : BufTy).Contents (Elt Ideal))
  (x3 : (⟨S2x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal))
  (x7 : (⟨S16x16, .f32⟩ : BufTy).Contents (Elt Ideal)) (x8 : (⟨S16, .f32⟩ : BufTy).Contents (Elt Ideal)) (x9 : (⟨S16x16, .f32⟩ : BufTy).Contents (Elt Ideal)) (x10 : (⟨S16, .f32⟩ : BufTy).Contents (Elt Ideal))
  (x11 : (⟨S16x16, .f32⟩ : BufTy).Contents (Elt Ideal)) (x12 : (⟨S16, .f32⟩ : BufTy).Contents (Elt Ideal)) (x13 : (⟨S16x16, .f32⟩ : BufTy).Contents (Elt Ideal)) (x14 : (⟨S16, .f32⟩ : BufTy).Contents (Elt Ideal))
  (x15 : (⟨S16x16, .f32⟩ : BufTy).Contents (Elt Ideal)) (x16 : (⟨S16, .f32⟩ : BufTy).Contents (Elt Ideal)) (x17 : (⟨S16x1, .f32⟩ : BufTy).Contents (Elt Ideal)) (x18 : (⟨S1, .f32⟩ : BufTy).Contents (Elt Ideal))

/- In each proof below both sides are read at an entry (p, q). The index maps of the two products are the coordinate
   pairs (p, k), (k, h) and (p, h), (h, q); those of the two bias broadcasts are the single coordinates h and q; the
   constant the maximum is taken with is the real number 0. After these identifications the two sides are the same sum. -/

/-- The first graph layer. -/
theorem layer1 : val_main_v24 (F := Ideal) x0 x1 x3 x4 x5 x6 = mlp relu (val_main_v14 (F := Ideal) x0 x1) x3 x4 x5 x6 := by
  funext i
  obtain ⟨p, q, rfl⟩ : ∃ (p : Fin 200000) (q : Fin 16), i = ix2 p q := ⟨i 0, i 1, eq_ix2 i⟩
  rw [mlp_apply]
  unfold mlpAt relu
  rw [val_main_v24_apply, val_main_v23_apply, val_main_call1_v0_apply, val_main_call1_cst_apply,
    val_main_v20_apply, val_main_v22_apply, val_main_v21_apply]
  have eL2 : ∀ k : Fin 16, lidx_main_v20 (ix2 p q) k = ix2 p k := fun k =>
    funext fun a => Fin.ext (by match a with | ⟨0, _⟩ => rfl | ⟨1, _⟩ => rfl)
  have eR2 : ∀ k : Fin 16, ridx_main_v20 (ix2 p q) k = ix2 k q := fun k =>
    funext fun a => Fin.ext (by match a with | ⟨0, _⟩ => rfl | ⟨1, _⟩ => rfl)
  have eB2 : idx_main_v21 (idx_main_v22 (ix2 p q)) = ix1 q :=
    funext fun a => Fin.ext (by match a with | ⟨0, _⟩ => rfl)
  have eL1 : ∀ (h : Fin 16) (k : Fin 2), lidx_main_v15 (ix2 p h) k = ix2 p k := fun h k =>
    funext fun a => Fin.ext (by match a with | ⟨0, _⟩ => rfl | ⟨1, _⟩ => rfl)
  have eR1 : ∀ (h : Fin 16) (k : Fin 2), ridx_main_v15 (ix2 p h) k = ix2 k h := fun h k =>
    funext fun a => Fin.ext (by match a with | ⟨0, _⟩ => rfl | ⟨1, _⟩ => rfl)
  have eB1 : ∀ h : Fin 16, idx_main_v16 (idx_main_v17 (ix2 p h)) = ix1 h := fun h =>
    funext fun a => Fin.ext (by match a with | ⟨0, _⟩ => rfl)
  simp only [eL2, eR2, eB2, val_main_v19_apply, val_main_v18_apply, val_main_call0_v0_apply,
    val_main_call0_cst_apply, val_main_v15_apply, val_main_v17_apply, val_main_v16_apply, eL1, eR1, eB1,
    Ideal.maximumf_def, Ideal.addf_def, Ideal.ofBits_def, Ideal.ofBits_zero_f32]

/-- The second graph layer. -/
theorem layer2 : val_main_v45 (F := Ideal) x0 x1 x3 x4 x5 x6 x7 x8 x9 x10
    = mlp relu (val_main_v35 (F := Ideal) x0 x1 x3 x4 x5 x6) x7 x8 x9 x10 := by
  funext i
  obtain ⟨p, q, rfl⟩ : ∃ (p : Fin 200000) (q : Fin 16), i = ix2 p q := ⟨i 0, i 1, eq_ix2 i⟩
  rw [mlp_apply]
  unfold mlpAt relu
  rw [val_main_v45_apply, val_main_v44_apply, val_main_call3_v0_apply, val_main_call3_cst_apply,
    val_main_v41_apply, val_main_v43_apply, val_main_v42_apply]
  have eL2 : ∀ k : Fin 16, lidx_main_v41 (ix2 p q) k = ix2 p k := fun k =>
    funext fun a => Fin.ext (by match a with | ⟨0, _⟩ => rfl | ⟨1, _⟩ => rfl)
  have eR2 : ∀ k : Fin 16, ridx_main_v41 (ix2 p q) k = ix2 k q := fun k =>
    funext fun a => Fin.ext (by match a with | ⟨0, _⟩ => rfl | ⟨1, _⟩ => rfl)
  have eB2 : idx_main_v42 (idx_main_v43 (ix2 p q)) = ix1 q :=
    funext fun a => Fin.ext (by match a with | ⟨0, _⟩ => rfl)
  have eL1 : ∀ (h : Fin 16) (k : Fin 16), lidx_main_v36 (ix2 p h) k = ix2 p k := fun h k =>
    funext fun a => Fin.ext (by match a with | ⟨0, _⟩ => rfl | ⟨1, _⟩ => rfl)
  have eR1 : ∀ (h : Fin 16) (k : Fin 16), ridx_main_v36 (ix2 p h) k = ix2 k h := fun h k =>
    funext fun a => Fin.ext (by match a with | ⟨0, _⟩ => rfl | ⟨1, _⟩ => rfl)
  have eB1 : ∀ h : Fin 16, idx_main_v37 (idx_main_v38 (ix2 p h)) = ix1 h := fun h =>
    funext fun a => Fin.ext (by match a with | ⟨0, _⟩ => rfl)
  simp only [eL2, eR2, eB2, val_main_v40_apply, val_main_v39_apply, val_main_call2_v0_apply,
    val_main_call2_cst_apply, val_main_v36_apply, val_main_v38_apply, val_main_v37_apply, eL1, eR1, eB1,
    Ideal.maximumf_def, Ideal.addf_def, Ideal.ofBits_def, Ideal.ofBits_zero_f32]

/-- The third graph layer. -/
theorem layer3 : val_main_v66 (F := Ideal) x0 x1 x3 x4 x5 x6 x7 x8 x9 x10 x11 x12 x13 x14
    = mlp relu (val_main_v56 (F := Ideal) x0 x1 x3 x4 x5 x6 x7 x8 x9 x10) x11 x12 x13 x14 := by
  funext i
  obtain ⟨p, q, rfl⟩ : ∃ (p : Fin 200000) (q : Fin 16), i = ix2 p q := ⟨i 0, i 1, eq_ix2 i⟩
  rw [mlp_apply]
  unfold mlpAt relu
  rw [val_main_v66_apply, val_main_v65_apply, val_main_call5_v0_apply, val_main_call5_cst_apply,
    val_main_v62_apply, val_main_v64_apply, val_main_v63_apply]
  have eL2 : ∀ k : Fin 16, lidx_main_v62 (ix2 p q) k = ix2 p k := fun k =>
    funext fun a => Fin.ext (by match a with | ⟨0, _⟩ => rfl | ⟨1, _⟩ => rfl)
  have eR2 : ∀ k : Fin 16, ridx_main_v62 (ix2 p q) k = ix2 k q := fun k =>
    funext fun a => Fin.ext (by match a with | ⟨0, _⟩ => rfl | ⟨1, _⟩ => rfl)
  have eB2 : idx_main_v63 (idx_main_v64 (ix2 p q)) = ix1 q :=
    funext fun a => Fin.ext (by match a with | ⟨0, _⟩ => rfl)
  have eL1 : ∀ (h : Fin 16) (k : Fin 16), lidx_main_v57 (ix2 p h) k = ix2 p k := fun h k =>
    funext fun a => Fin.ext (by match a with | ⟨0, _⟩ => rfl | ⟨1, _⟩ => rfl)
  have eR1 : ∀ (h : Fin 16) (k : Fin 16), ridx_main_v57 (ix2 p h) k = ix2 k h := fun h k =>
    funext fun a => Fin.ext (by match a with | ⟨0, _⟩ => rfl | ⟨1, _⟩ => rfl)
  have eB1 : ∀ h : Fin 16, idx_main_v58 (idx_main_v59 (ix2 p h)) = ix1 h := fun h =>
    funext fun a => Fin.ext (by match a with | ⟨0, _⟩ => rfl)
  simp only [eL2, eR2, eB2, val_main_v61_apply, val_main_v60_apply, val_main_call4_v0_apply,
    val_main_call4_cst_apply, val_main_v57_apply, val_main_v59_apply, val_main_v58_apply, eL1, eR1, eB1,
    Ideal.maximumf_def, Ideal.addf_def, Ideal.ofBits_def, Ideal.ofBits_zero_f32]

/-- The read-out on the pooled features. -/
theorem readout : val_main_v78 (F := Ideal) x0 x1 x2 x3 x4 x5 x6 x7 x8 x9 x10 x11 x12 x13 x14 x15 x16 x17 x18
    = mlp id (val_main_v69 (F := Ideal) x0 x1 x2 x3 x4 x5 x6 x7 x8 x9 x10 x11 x12 x13 x14) x15 x16 x17 x18 := by
  funext i
  obtain ⟨p, q, rfl⟩ : ∃ (p : Fin 2000) (q : Fin 1), i = ix2 p q := ⟨i 0, i 1, eq_ix2 i⟩
  rw [mlp_apply]
  unfold mlpAt
  rw [val_main_v78_apply, val_main_v75_apply, val_main_v77_apply, val_main_v76_apply]
  have eL2 : ∀ k : Fin 16, lidx_main_v75 (ix2 p q) k = ix2 p k := fun k =>
    funext fun a => Fin.ext (by match a with | ⟨0, _⟩ => rfl | ⟨1, _⟩ => rfl)
  have eR2 : ∀ k : Fin 16, ridx_main_v75 (ix2 p q) k = ix2 k q := fun k =>
    funext fun a => Fin.ext (by match a with | ⟨0, _⟩ => rfl | ⟨1, _⟩ => rfl)
  have eB2 : idx_main_v76 (idx_main_v77 (ix2 p q)) = ix1 q :=
    funext fun a => Fin.ext (by
      match a with
      | ⟨0, _⟩ =>
        have hq := q.isLt
        show (0 : Nat) = q.val
        omega)
  have eL1 : ∀ (h : Fin 16) (k : Fin 16), lidx_main_v70 (ix2 p h) k = ix2 p k := fun h k =>
    funext fun a => Fin.ext (by match a with | ⟨0, _⟩ => rfl | ⟨1, _⟩ => rfl)
  have eR1 : ∀ (h : Fin 16) (k : Fin 16), ridx_main_v70 (ix2 p h) k = ix2 k h := fun h k =>
    funext fun a => Fin.ext (by match a with | ⟨0, _⟩ => rfl | ⟨1, _⟩ => rfl)
  have eB1 : ∀ h : Fin 16, idx_main_v71 (idx_main_v72 (ix2 p h)) = ix1 h := fun h =>
    funext fun a => Fin.ext (by match a with | ⟨0, _⟩ => rfl)
  simp only [eL2, eR2, eB2, val_main_v74_apply, val_main_v73_apply, val_main_call6_v0_apply,
    val_main_call6_cst_apply, val_main_v70_apply, val_main_v72_apply, val_main_v71_apply, eL1, eR1, eB1,
    Ideal.maximumf_def, Ideal.addf_def, Ideal.ofBits_def, Ideal.ofBits_zero_f32, id_eq]

end Cert.ReferenceIdeal.RefValue

end
-- ==== Proof.Chain.lean ====
/-
  The device program's result as a function of its arguments.

  The memory at each boundary of the program is a fold from the launch memory. Read back through the fold, the
  array the first launch consumes is the first aggregation of the node features (features plus the scatter-added
  neighbour features), its weights and biases are the arguments (the biases reshaped to one row), and the array it
  leaves is the perceptron of these — which is the reference's first layer. The next host stretch aggregates that
  array with the same operations the reference applies to its own first layer, and so on through the three layers,
  the pooling and the read-out: the device result is the reference's result term at the device's arguments.
-/
import proofs.«181753_j22488448762768_2_alg».proof.Proof.KernelIdealFrameP
import proofs.«181753_j22488448762768_2_alg».proof.Proof.Gen.ReferenceIdeal.Read
import proofs.«181753_j22488448762768_2_alg».proof.Proof.Spec
import proofs.«181753_j22488448762768_2_alg».proof.Proof.Keep
import proofs.«181753_j22488448762768_2_alg».proof.Proof.Final0
import proofs.«181753_j22488448762768_2_alg».proof.Proof.Final1
import proofs.«181753_j22488448762768_2_alg».proof.Proof.Final2
import proofs.«181753_j22488448762768_2_alg».proof.Proof.Final3
import proofs.«181753_j22488448762768_2_alg».proof.Proof.RefMlp

set_option maxRecDepth 16384

noncomputable section

namespace Cert.KernelIdeal.Chain

open Cert.KernelIdeal Cert.KernelIdeal.Gen Cert.KernelIdeal.GenP Idealize.ShloMosaic Idealize.ShloMosaic.TcCoe Idealize.ShloMosaic.Tactic Idealize.SL.Sem
open Idealize.ShloMosaic.Pipeline (Dat Cfg Window)
open Cert.ReferenceIdeal.Read (val_main_v1 val_main_v3 val_main_v14 val_main_v24 val_main_v35 val_main_v45 val_main_v56 val_main_v66 val_main_v69 val_main_v78)
open Cert.Gin Cert.KernelIdeal.Keep Cert.KernelIdeal.RegionValue Cert.ReferenceIdeal.RefValue

variable (m : (ℓ : Loc nD τ sig) → Buf (Elt Ideal) ℓ) (ρ : Dev nD → PrngReg) (c : Dev nD)

set_option quotPrecheck false

local notation "𝐚0" => m ((c : Thread nD τ).loc main_arg0)
local notation "𝐚1" => m ((c : Thread nD τ).loc main_arg1)
local notation "𝐚2" => m ((c : Thread nD τ).loc main_arg2)
local notation "𝐚3" => m ((c : Thread nD τ).loc main_arg3)
local notation "𝐚4" => m ((c : Thread nD τ).loc main_arg4)
local notation "𝐚5" => m ((c : Thread nD τ).loc main_arg5)
local notation "𝐚6" => m ((c : Thread nD τ).loc main_arg6)
local notation "𝐚7" => m ((c : Thread nD τ).loc main_arg7)
local notation "𝐚8" => m ((c : Thread nD τ).loc main_arg8)
local notation "𝐚9" => m ((c : Thread nD τ).loc main_arg9)
local notation "𝐚10" => m ((c : Thread nD τ).loc main_arg10)
local notation "𝐚11" => m ((c : Thread nD τ).loc main_arg11)
local notation "𝐚12" => m ((c : Thread nD τ).loc main_arg12)
local notation "𝐚13" => m ((c : Thread nD τ).loc main_arg13)
local notation "𝐚14" => m ((c : Thread nD τ).loc main_arg14)
local notation "𝐚15" => m ((c : Thread nD τ).loc main_arg15)
local notation "𝐚16" => m ((c : Thread nD τ).loc main_arg16)
local notation "𝐚17" => m ((c : Thread nD τ).loc main_arg17)
local notation "𝐚18" => m ((c : Thread nD τ).loc main_arg18)

/-! ## The source and destination vectors, wherever a stretch reads them -/

theorem W1_src : W1 m ρ c (Proc.devRef .tc main_v1) = val_main_v1 (F := Ideal) 𝐚1 := by
  show StableHlo.after hostOps0 (W0 m ρ c) (Proc.devRef .tc main_v1) = _
  after_results
  rfl

theorem W1_dst : W1 m ρ c (Proc.devRef .tc main_v3) = val_main_v3 (F := Ideal) 𝐚1 := by
  show StableHlo.after hostOps0 (W0 m ρ c) (Proc.devRef .tc main_v3) = _
  after_results
  rfl

theorem W2_src : W2 m ρ c (Proc.devRef .tc main_v1) = val_main_v1 (F := Ideal) 𝐚1 :=
  (W2_keep m ρ c main_v1 (by decide)).trans (W1_src m ρ c)

theorem W2_dst : W2 m ρ c (Proc.devRef .tc main_v3) = val_main_v3 (F := Ideal) 𝐚1 :=
  (W2_keep m ρ c main_v3 (by decide)).trans (W1_dst m ρ c)

theorem W4_src : W4 m ρ c (Proc.devRef .tc main_v1) = val_main_v1 (F := Ideal) 𝐚1 :=
  (W4_eq_W2 m ρ c main_v1 (by decide)).trans (W2_src m ρ c)

theorem W4_dst : W4 m ρ c (Proc.devRef .tc main_v3) = val_main_v3 (F := Ideal) 𝐚1 :=
  (W4_eq_W2 m ρ c main_v3 (by decide)).trans (W2_dst m ρ c)

/-! ## The first layer: what the first launch finds and what it leaves -/

set_option maxHeartbeats 1000000 in
theorem V1_x : V1 m ρ c main_v14 = val_main_v14 (F := Ideal) 𝐚0 𝐚1 := by
  show StableHlo.after hostOps0 (W0 m ρ c) (Proc.devRef .tc main_v14) = _
  after_results_simp
  rfl

theorem V1_wa : V1 m ρ c main_arg3 = 𝐚3 := by
  show StableHlo.after hostOps0 (W0 m ρ c) (Proc.devRef .tc main_arg3) = _
  after_results
  try rfl

theorem V1_ba : V1 m ρ c main_v15 = shapeCast S1x16 𝐚4 shapeCasts_S16_S1x16 := by
  show StableHlo.after hostOps0 (W0 m ρ c) (Proc.devRef .tc main_v15) = _
  after_results
  try rfl

theorem V1_wb : V1 m ρ c main_arg5 = 𝐚5 := by
  show StableHlo.after hostOps0 (W0 m ρ c) (Proc.devRef .tc main_arg5) = _
  after_results
  try rfl

theorem V1_bb : V1 m ρ c main_v16 = shapeCast S1x16 𝐚6 shapeCasts_S16_S1x16 := by
  show StableHlo.after hostOps0 (W0 m ρ c) (Proc.devRef .tc main_v16) = _
  after_results
  try rfl

/-- The first launch leaves the reference's first layer. -/
theorem layer1_out : W2 m ρ c (Proc.devRef .tc main_v17) = val_main_v24 (F := Ideal) 𝐚0 𝐚1 𝐚3 𝐚4 𝐚5 𝐚6 := by
  refine (W2_arr m ρ c 5).trans ?_
  rw [final0 (V1 m ρ) c, V1_x, V1_wa, V1_ba, V1_wb, V1_bb, layer1]
  exact mlpK_reshape relu _ _ _ _ _ _ _

/-! ## The second layer -/

set_option maxHeartbeats 1000000 in
theorem V3_x : V3 m ρ c main_v28 = val_main_v35 (F := Ideal) 𝐚0 𝐚1 𝐚3 𝐚4 𝐚5 𝐚6 := by
  show StableHlo.after hostOps1 (W2 m ρ c) (Proc.devRef .tc main_v28) = _
  after_results_simp
  rw [layer1_out m ρ c, W2_src m ρ c, W2_dst m ρ c]
  rfl

theorem V3_wa : V3 m ρ c main_arg7 = 𝐚7 :=
  (host1_keep m ρ c main_arg7 (by decide)).trans (W2_arg m ρ c main_arg7 (by decide))

theorem V3_ba : V3 m ρ c main_v29 = shapeCast S1x16 𝐚8 shapeCasts_S16_S1x16 := by
  show StableHlo.after hostOps1 (W2 m ρ c) (Proc.devRef .tc main_v29) = _
  after_results
  rw [W2_arg m ρ c main_arg8 (by decide)]
  rfl

theorem V3_wb : V3 m ρ c main_arg9 = 𝐚9 :=
  (host1_keep m ρ c main_arg9 (by decide)).trans (W2_arg m ρ c main_arg9 (by decide))

theorem V3_bb : V3 m ρ c main_v30 = shapeCast S1x16 𝐚10 shapeCasts_S16_S1x16 := by
  show StableHlo.after hostOps1 (W2 m ρ c) (Proc.devRef .tc main_v30) = _
  after_results
  rw [W2_arg m ρ c main_arg10 (by decide)]
  rfl

/-- The second launch leaves the reference's second layer. -/
theorem layer2_out : W4 m ρ c (Proc.devRef .tc main_v31)
    = val_main_v45 (F := Ideal) 𝐚0 𝐚1 𝐚3 𝐚4 𝐚5 𝐚6 𝐚7 𝐚8 𝐚9 𝐚10 := by
  refine (W4_arr m ρ c 5).trans ?_
  rw [final1 (V3 m ρ) c, V3_x, V3_wa, V3_ba, V3_wb, V3_bb, layer2]
  exact mlpK_reshape relu _ _ _ _ _ _ _

/-! ## The third layer -/

set_option maxHeartbeats 1000000 in
theorem V5_x : V5 m ρ c main_v42 = val_main_v56 (F := Ideal) 𝐚0 𝐚1 𝐚3 𝐚4 𝐚5 𝐚6 𝐚7 𝐚8 𝐚9 𝐚10 := by
  show StableHlo.after hostOps2 (W4 m ρ c) (Proc.devRef .tc main_v42) = _
  after_results_simp
  rw [layer2_out m ρ c, W4_src m ρ c, W4_dst m ρ c]
  rfl

theorem V5_wa : V5 m ρ c main_arg11 = 𝐚11 :=
  (host2_keep m ρ c main_arg11 (by decide)).trans (W4_arg m ρ c main_arg11 (by decide))

theorem V5_ba : V5 m ρ c main_v43 = shapeCast S1x16 𝐚12 shapeCasts_S16_S1x16 := by
  show StableHlo.after hostOps2 (W4 m ρ c) (Proc.devRef .tc main_v43) = _
  after_results
  rw [W4_arg m ρ c main_arg12 (by decide)]
  rfl

theorem V5_wb : V5 m ρ c main_arg13 = 𝐚13 :=
  (host2_keep m ρ c main_arg13 (by decide)).trans (W4_arg m ρ c main_arg13 (by decide))

theorem V5_bb : V5 m ρ c main_v44 = shapeCast S1x16 𝐚14 shapeCasts_S16_S1x16 := by
  show StableHlo.after hostOps2 (W4 m ρ c) (Proc.devRef .tc main_v44) = _
  after_results
  rw [W4_arg m ρ c main_arg14 (by decide)]
  rfl

/-- The third launch leaves the reference's third layer. -/
theorem layer3_out : W6 m ρ c (Proc.devRef .tc main_v45)
    = val_main_v66 (F := Ideal) 𝐚0 𝐚1 𝐚3 𝐚4 𝐚5 𝐚6 𝐚7 𝐚8 𝐚9 𝐚10 𝐚11 𝐚12 𝐚13 𝐚14 := by
  refine (W6_arr m ρ c 5).trans ?_
  rw [final2 (V5 m ρ) c, V5_x, V5_wa, V5_ba, V5_wb, V5_bb, layer3]
  exact mlpK_reshape relu _ _ _ _ _ _ _

/-! ## The pooling and the read-out -/

set_option maxHeartbeats 1000000 in
theorem V7_x : V7 m ρ c main_v48
    = val_main_v69 (F := Ideal) 𝐚0 𝐚1 𝐚2 𝐚3 𝐚4 𝐚5 𝐚6 𝐚7 𝐚8 𝐚9 𝐚10 𝐚11 𝐚12 𝐚13 𝐚14 := by
  show StableHlo.after hostOps3 (W6 m ρ c) (Proc.devRef .tc main_v48) = _
  after_results_simp
  rw [layer3_out m ρ c, W6_arg m ρ c main_arg2 (by decide)]
  rfl

theorem V7_wa : V7 m ρ c main_arg15 = 𝐚15 := by
  show StableHlo.after hostOps3 (W6 m ρ c) (Proc.devRef .tc main_arg15) = _
  after_results
  exact W6_arg m ρ c main_arg15 (by decide)

theorem V7_ba : V7 m ρ c main_v49 = shapeCast S1x16 𝐚16 shapeCasts_S16_S1x16 := by
  show StableHlo.after hostOps3 (W6 m ρ c) (Proc.devRef .tc main_v49) = _
  after_results
  rw [W6_arg m ρ c main_arg16 (by decide)]
  rfl

theorem V7_wb : V7 m ρ c main_arg17 = 𝐚17 := by
  show StableHlo.after hostOps3 (W6 m ρ c) (Proc.devRef .tc main_arg17) = _
  after_results
  exact W6_arg m ρ c main_arg17 (by decide)

theorem V7_bb : V7 m ρ c main_v50 = shapeCast S1x1 𝐚18 shapeCasts_S1_S1x1 := by
  show StableHlo.after hostOps3 (W6 m ρ c) (Proc.devRef .tc main_v50) = _
  after_results
  rw [W6_arg m ρ c main_arg18 (by decide)]
  rfl

/-- THE DEVICE RESULT is the reference's result term at the device's arguments. -/
theorem result_eq : W8 m ρ c (Proc.devRef .tc main_v51)
    = val_main_v78 (F := Ideal) 𝐚0 𝐚1 𝐚2 𝐚3 𝐚4 𝐚5 𝐚6 𝐚7 𝐚8 𝐚9 𝐚10 𝐚11 𝐚12 𝐚13 𝐚14 𝐚15 𝐚16 𝐚17 𝐚18 := by
  refine (W8_arr m ρ c 5).trans ?_
  rw [final3 (V7 m ρ) c, V7_x, V7_wa, V7_ba, V7_wb, V7_bb, readout]
  exact mlpK_reshape id _ _ _ _ _ _ _

end Cert.KernelIdeal.Chain

end
-- ==== Proof.lean ====
/-
  A three-layer graph network, its dense stages on the device against the same network on the host, equal over the
  extended reals.

  Both programs aggregate each node's neighbours with the same host operations (a gather of the source rows, a
  scatter-add onto the destination rows, a sum with the node's own row), three times over, then pool the nodes of each
  graph with a scatter-add and read the result out. Between the aggregations the device program launches a kernel that,
  block of 8000 rows by block, applies a two-layer perceptron max (max (c · Wa + ba) 0 · Wb + bb) 0 — its products
  into zero accumulators, its operands passed through a narrower float format that is the identity on the extended
  reals — and, for the read-out, one launch over the whole pooled array without the last maximum. The host program
  computes the same perceptron as two matrix products, two broadcast biases and maxima with zero.

  The proof: each launch's output array is the perceptron of the whole arrays it finds (blocks to arrays); the
  memory at each boundary of the device program, read back through its segments, gives the result as the host
  program's own result term at the device's arguments, the aggregations being the same operations on both sides and
  never opened; the host program's stages read entry by entry are the same perceptron. No property of the inputs is
  used: the two sides are the same sums and maxima in the same order.
-/
import proofs.«181753_j22488448762768_2_alg».proof.Defs
import proofs.«181753_j22488448762768_2_alg».proof.Proof.Gen.Kernel
import proofs.«181753_j22488448762768_2_alg».proof.Proof.Gen.KernelIdeal
import proofs.«181753_j22488448762768_2_alg».proof.Proof.Gen.ReferenceIdeal
import proofs.«181753_j22488448762768_2_alg».proof.Proof.Gen.Pre_finite_inputs
import proofs.«181753_j22488448762768_2_alg».proof.Proof.Gen.ReferenceIdeal.Run
import proofs.«181753_j22488448762768_2_alg».proof.Proof.Gen.ReferenceIdeal.Read
import proofs.«181753_j22488448762768_2_alg».proof.Proof.KernelFrameP
import proofs.«181753_j22488448762768_2_alg».proof.Proof.KernelIdealFrameP
import proofs.«181753_j22488448762768_2_alg».proof.Proof.KRun
import proofs.«181753_j22488448762768_2_alg».proof.Proof.Chain
import Idealize.ShloMosaic.Adequacy
import Idealize.ShloMosaic.Init

noncomputable section

namespace Cert.Proof

open Idealize.ShloMosaic Idealize.SL.Sem

/-- The device program as printed runs and keeps its arguments. -/
theorem frame_kernel : Cert.frame_Kernel := fun m ρ _ => Cert.Kernel.GenP.frame m ρ

/-- The idealized device program runs and keeps its arguments. -/
theorem frame_kernelIdeal : Cert.frame_KernelIdeal := fun m ρ _ => Cert.KernelIdeal.GenP.frame m ρ

/-- The host program runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the host program's result term at those
    arguments. -/
theorem algebraic : Cert.algebraic_KernelIdeal_ReferenceIdeal := by
  intro m ρ m' ρ' _ hagree
  refine ⟨fun c => Cert.KernelIdeal.GenP.W8 m ρ c (Proc.devRef .tc Cert.KernelIdeal.main_v51),
    Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18⟩ := hagree c
  beta_reduce
  rw [Cert.ReferenceIdeal.Read.val_main_v78_eq, Cert.KernelIdeal.Chain.result_eq m ρ c,
    h0, h1, h2, h3, h4, h5, h6, h7, h8, h9, h10, h11, h12, h13, h14, h15, h16, h17, h18]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
